-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S50000x2 : Shape := ⟨2, ![50000, 2]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x2 : S_.BroadcastsInDim S50000x2 (![] : Fin 0 → Fin S50000x2.rank)
  reducesTo_S50000x2_S_d0_1 : S50000x2.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S128 .f32) (main_arg9 : FVec F S128x1 .f32) (main_arg10 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x1 .f32 := Host.absf main_arg9
  let main_cst_14 : FVec F S_ .f32 := constant S_ .f32 0x7F800000#32
  let main_v40 : FVec F S128x1 .f32 := broadcastInDim S128x1 ![] bcast_S_S128x1 main_cst_14
  let main_v41 : IVec S128x1 1 := cmpf .olt main_v39 main_v40
  let main_c_15 : IVec S_ 1 := constantI S_ 1 1#1
  let main_v42 : IVec S_ 1 := (fun x v => Host.reduce IntOp.andi x v reducesTo_S128x1_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x128 .f32) (main_arg8 : FVec F S128 .f32) (main_arg9 : FVec F S128x1 .f32) (main_arg10 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x1600000 32) (main_arg2 : FVec F S50000x2 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x1 .f32) (main_arg10 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x2 .f32 := Host.absf main_arg2
  let main_cst_0 : FVec F S_ .f32 := constant S_ .f32 0x7F800000#32
  let main_v5 : FVec F S50000x2 .f32 := broadcastInDim S50000x2 ![] bcast_S_S50000x2 main_cst_0
  let main_v6 : IVec S50000x2 1 := cmpf .olt main_v4 main_v5
  let main_c_1 : IVec S_ 1 := constantI S_ 1 1#1
  let main_v7 : IVec S_ 1 := (fun x v => Host.reduce IntOp.andi x v reducesTo_S50000x2_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x1600000 : Shape := ⟨2, ![2, 1600000]⟩
abbrev S50000x2 : Shape := ⟨2, ![50000, 2]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S5000x128 : Shape := ⟨2, ![5000, 128]⟩
abbrev S1650000x128 : Shape := ⟨2, ![1650000, 128]⟩
abbrev S1x128 : Shape := ⟨2, ![1, 128]⟩
abbrev S1x1 : Shape := ⟨2, ![1, 1]⟩

abbrev nBuf : Space → Nat
  | .hbm => 125
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S50000x2, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S50000, .i32⟩
  | .hbm, ⟨16, _⟩ => ⟨S1650000, .i32⟩
  | .hbm, ⟨17, _⟩ => ⟨S1650000, .i32⟩
  | .hbm, ⟨18, _⟩ => ⟨S_, .f32⟩
  | .hbm, ⟨19, _⟩ => ⟨S1650000, .f32⟩
  | .hbm, ⟨20, _⟩ => ⟨S_, .f32⟩
  | .hbm, ⟨21, _⟩ => ⟨S50000, .f32⟩
  | .hbm, ⟨22, _⟩ => ⟨S1650000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .i1⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S1650000, .i32⟩
  | .hbm, ⟨34, _⟩ => ⟨S1650000, .i1⟩
  | .hbm, ⟨35, _⟩ => ⟨S_, .i32⟩
  | .hbm, ⟨36, _⟩ => ⟨S1650000, .i32⟩
  | .hbm, ⟨37, _⟩ => ⟨S1650000, .i32⟩
  | .hbm, ⟨38, _⟩ => ⟨S1650000, .i32⟩
  | .hbm, ⟨39, _⟩ => ⟨S1650000x1, .i32⟩
  | .hbm, ⟨40, _⟩ => ⟨S1650000, .f32⟩
  | .hbm, ⟨41, _⟩ => ⟨S_, .i32⟩
  | .hbm, ⟨42, _⟩ => ⟨S1650000, .i32⟩
  | .hbm, ⟨43, _⟩ => ⟨S1650000, .i1⟩
  | .hbm, ⟨44, _⟩ => ⟨S_, .i32⟩
  | .hbm, ⟨45, _⟩ => ⟨S1650000, .i32⟩
  | .hbm, ⟨46, _⟩ => ⟨S1650000, .i32⟩
  | .hbm, ⟨47, _⟩ => ⟨S1650000, .i32⟩
  | .hbm, ⟨48, _⟩ => ⟨S1650000x1, .i32⟩
  | .hbm, ⟨49, _⟩ => ⟨S1650000, .f32⟩
  | .hbm, ⟨50, _⟩ => ⟨S1650000, .f32⟩
  | .hbm, ⟨51, _⟩ => ⟨S50000x128, .f32⟩
  | .hbm, ⟨52, _⟩ => ⟨S_, .i32⟩
  | .hbm, ⟨53, _⟩ => ⟨S1650000, .i32⟩
  | .hbm, ⟨54, _⟩ => ⟨S1650000, .i1⟩
  | .hbm, ⟨55, _⟩ => ⟨S_, .i32⟩
  | .hbm, ⟨56, _⟩ => ⟨S1650000, .i32⟩
  | .hbm, ⟨57, _⟩ => ⟨S1650000, .i32⟩
  | .hbm, ⟨58, _⟩ => ⟨S1650000, .i32⟩
  | .hbm, ⟨59, _⟩ => ⟨S1650000x1, .i32⟩
  | .hbm, ⟨60, _⟩ => ⟨S1650000x128, .f32⟩
  | .hbm, ⟨61, _⟩ => ⟨S1650000x1, .f32⟩
  | .hbm, ⟨62, _⟩ => ⟨S1650000x128, .f32⟩
  | .hbm, ⟨63, _⟩ => ⟨S1650000x128, .f32⟩
  | .hbm, ⟨64, _⟩ => ⟨S_, .f32⟩
  | .hbm, ⟨65, _⟩ => ⟨S50000x128, .f32⟩
  | .hbm, ⟨66, _⟩ => ⟨S1650000x1, .i32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S_, .i32⟩
  | .hbm, ⟨72, _⟩ => ⟨S1650000, .i32⟩
  | .hbm, ⟨73, _⟩ => ⟨S1650000, .i1⟩
  | .hbm, ⟨74, _⟩ => ⟨S_, .i32⟩
  | .hbm, ⟨75, _⟩ => ⟨S1650000, .i32⟩
  | .hbm, ⟨76, _⟩ => ⟨S1650000, .i32⟩
  | .hbm, ⟨77, _⟩ => ⟨S1650000, .i32⟩
  | .hbm, ⟨78, _⟩ => ⟨S1650000x1, .i32⟩
  | .hbm, ⟨79, _⟩ => ⟨S1650000x128, .f32⟩
  | .hbm, ⟨80, _⟩ => ⟨S1650000x1, .f32⟩
  | .hbm, ⟨81, _⟩ => ⟨S1650000x128, .f32⟩
  | .hbm, ⟨82, _⟩ => ⟨S1650000x128, .f32⟩
  | .hbm, ⟨83, _⟩ => ⟨S_, .f32⟩
  | .hbm, ⟨84, _⟩ => ⟨S50000x128, .f32⟩
  | .hbm, ⟨85, _⟩ => ⟨S1650000x1, .i32⟩
  | .hbm, ⟨86, _⟩ => ⟨S50000x128, .f32⟩
  | .hbm, ⟨87, _⟩ => ⟨S1x128, .f32⟩
  | .hbm, ⟨88, _⟩ => ⟨S50000x128, .f32⟩
  | .hbm, ⟨89, _⟩ => ⟨S50000x128, .f32⟩
  | .hbm, ⟨90, _⟩ => ⟨S_, .i32⟩
  | .hbm, ⟨91, _⟩ => ⟨S1650000, .i32⟩
  | .hbm, ⟨92, _⟩ => ⟨S1650000, .i1⟩
  | .hbm, ⟨93, _⟩ => ⟨S_, .i32⟩
  | .hbm, ⟨94, _⟩ => ⟨S1650000, .i32⟩
  | .hbm, ⟨95, _⟩ => ⟨S1650000, .i32⟩
  | .hbm, ⟨96, _⟩ => ⟨S1650000, .i32⟩
  | .hbm, ⟨97, _⟩ => ⟨S1650000x1, .i32⟩
  | .hbm, ⟨98, _⟩ => ⟨S1650000x128, .f32⟩
  | .hbm, ⟨99, _⟩ => ⟨S1650000x1, .f32⟩
  | .hbm, ⟨100, _⟩ => ⟨S1650000x128, .f32⟩
  | .hbm, ⟨101, _⟩ => ⟨S1650000x128, .f32⟩
  | .hbm, ⟨102, _⟩ => ⟨S_, .f32⟩
  | .hbm, ⟨103, _⟩ => ⟨S50000x128, .f32⟩
  | .hbm, ⟨104, _⟩ => ⟨S1650000x1, .i32⟩
  | .hbm, ⟨105, _⟩ => ⟨S50000x128, .f32⟩
  | .hbm, ⟨106, _⟩ => ⟨S1x128, .f32⟩
  | .hbm, ⟨107, _⟩ => ⟨S50000x128, .f32⟩
  | .hbm, ⟨108, _⟩ => ⟨S_, .f32⟩
  | .hbm, ⟨109, _⟩ => ⟨S128, .f32⟩
  | .hbm, ⟨110, _⟩ => ⟨S1x128, .f32⟩
  | .hbm, ⟨111, _⟩ => ⟨S_, .f32⟩
  | .hbm, ⟨112, _⟩ => ⟨S1x128, .f32⟩
  | .hbm, ⟨113, _⟩ => ⟨S1x128, .f32⟩
  | .hbm, ⟨114, _⟩ => ⟨S1x1, .f32⟩
  | .hbm, ⟨115, _⟩ => ⟨S1x1, .f32⟩
  | .hbm, ⟨116, _⟩ => ⟨S1x1, .f32⟩
  | .hbm, ⟨117, _⟩ => ⟨S1x1, .f32⟩
  | .hbm, ⟨118, _⟩ => ⟨S1x1, .f32⟩
  | .hbm, ⟨119, _⟩ => ⟨S_, .f32⟩
  | .hbm, ⟨120, _⟩ => ⟨S1x1, .f32⟩
  | .hbm, ⟨121, _⟩ => ⟨S1x1, .f32⟩
  | .hbm, ⟨122, _⟩ => ⟨S_, .f32⟩
  | .hbm, ⟨123, _⟩ => ⟨S1x1, .f32⟩
  | .hbm, ⟨124, _⟩ => ⟨S1x1, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_9 : Ref sig .tc := ⟨.hbm, 71, rfl⟩
abbrev main_v47 : Ref sig .tc := ⟨.hbm, 72, rfl⟩
abbrev main_v48 : Ref sig .tc := ⟨.hbm, 73, rfl⟩
abbrev main_c_10 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_11 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_12 : Ref sig .tc := ⟨.hbm, 90, rfl⟩
abbrev main_v63 : Ref sig .tc := ⟨.hbm, 91, rfl⟩
abbrev main_v64 : Ref sig .tc := ⟨.hbm, 92, rfl⟩
abbrev main_c_13 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_14 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_15 : Ref sig .tc := ⟨.hbm, 108, rfl⟩
abbrev main_v78 : Ref sig .tc := ⟨.hbm, 109, rfl⟩
abbrev main_v79 : Ref sig .tc := ⟨.hbm, 110, rfl⟩
abbrev main_cst_16 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_17 : Ref sig .tc := ⟨.hbm, 119, rfl⟩
abbrev main_v87 : Ref sig .tc := ⟨.hbm, 120, rfl⟩
abbrev main_v88 : Ref sig .tc := ⟨.hbm, 121, rfl⟩
abbrev main_cst_18 : Ref sig .tc := ⟨.hbm, 122, rfl⟩
abbrev main_v89 : Ref sig .tc := ⟨.hbm, 123, rfl⟩
abbrev main_v90 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reducesTo_S50000x128_S128_d0 : S50000x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S1_S1x1_1 : S1.BroadcastsInDim S1x1 (![1] : Fin 1 → Fin S1x1.rank)
  bcast_S_S1x1 : S_.BroadcastsInDim S1x1 (![] : Fin 0 → Fin S1x1.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S5000x128_S128x128_S5000x128_1_0_0_1_n_n_wf : DotDims.WF S5000x128 S128x128 S5000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S1x128_S128x1_S1x1_1_0_0_1_n_n_wf : DotDims.WF S1x128 S128x1 S1x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S1x128_S128x1_S1x1_1_0_0_1_n_n : DotDims S1x128 S128x1 S1x1 where
  lhsContracting := [1]
  rhsContracting := [0]
  lhsNonContracting := [0]
  rhsNonContracting := [1]
  lhsBatch := []
  rhsBatch := []
  wf := dot_S1x128_S128x1_S1x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S50000x2 : Shape := ⟨2, ![50000, 2]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S1650000x128 : Shape := ⟨2, ![1650000, 128]⟩
abbrev S1x128 : Shape := ⟨2, ![1, 128]⟩
abbrev S1x1 : Shape := ⟨2, ![1, 1]⟩

abbrev nBuf : Space → Nat
  | .hbm => 134
  | .vmem => 0
  | .smem => 0
  | _ => 0

abbrev hbmTy0_0 (i : Nat) : BufTy := match i % 128 with
  | 0 => ⟨S50000x128, .f32⟩
  | 1 => ⟨S2x1600000, .i32⟩
  | 2 => ⟨S50000x2, .f32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x1, .f32⟩
  | 10 => ⟨S1, .f32⟩
  | 11 => ⟨S1x1600000, .i32⟩
  | 12 => ⟨S1600000, .i32⟩
  | 13 => ⟨S1x1600000, .i32⟩
  | 14 => ⟨S1600000, .i32⟩
  | 15 => ⟨S50000, .i32⟩
  | 16 => ⟨S1650000, .i32⟩
  | 17 => ⟨S1650000, .i32⟩
  | 18 => ⟨S_, .f32⟩
  | 19 => ⟨S1650000, .f32⟩
  | 20 => ⟨S_, .f32⟩
  | 21 => ⟨S50000, .f32⟩
  | 22 => ⟨S1650000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S1650000, .i32⟩
  | 34 => ⟨S1650000, .i1⟩
  | 35 => ⟨S_, .i32⟩
  | 36 => ⟨S1650000, .i32⟩
  | 37 => ⟨S1650000, .i32⟩
  | 38 => ⟨S1650000, .i32⟩
  | 39 => ⟨S1650000x1, .i32⟩
  | 40 => ⟨S1650000, .f32⟩
  | 41 => ⟨S_, .i32⟩
  | 42 => ⟨S1650000, .i32⟩
  | 43 => ⟨S1650000, .i1⟩
  | 44 => ⟨S_, .i32⟩
  | 45 => ⟨S1650000, .i32⟩
  | 46 => ⟨S1650000, .i32⟩
  | 47 => ⟨S1650000, .i32⟩
  | 48 => ⟨S1650000x1, .i32⟩
  | 49 => ⟨S1650000, .f32⟩
  | 50 => ⟨S1650000, .f32⟩
  | 51 => ⟨S50000x128, .f32⟩
  | 52 => ⟨S_, .i32⟩
  | 53 => ⟨S1650000, .i32⟩
  | 54 => ⟨S1650000, .i1⟩
  | 55 => ⟨S_, .i32⟩
  | 56 => ⟨S1650000, .i32⟩
  | 57 => ⟨S1650000, .i32⟩
  | 58 => ⟨S1650000, .i32⟩
  | 59 => ⟨S1650000x1, .i32⟩
  | 60 => ⟨S1650000x128, .f32⟩
  | 61 => ⟨S1650000x1, .f32⟩
  | 62 => ⟨S1650000x128, .f32⟩
  | 63 => ⟨S1650000x128, .f32⟩
  | 64 => ⟨S_, .f32⟩
  | 65 => ⟨S50000x128, .f32⟩
  | 66 => ⟨S1650000x1, .i32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S50000x128, .f32⟩
  | 75 => ⟨S_, .i32⟩
  | 76 => ⟨S1650000, .i32⟩
  | 77 => ⟨S1650000, .i1⟩
  | 78 => ⟨S_, .i32⟩
  | 79 => ⟨S1650000, .i32⟩
  | 80 => ⟨S1650000, .i32⟩
  | 81 => ⟨S1650000, .i32⟩
  | 82 => ⟨S1650000x1, .i32⟩
  | 83 => ⟨S1650000x128, .f32⟩
  | 84 => ⟨S1650000x1, .f32⟩
  | 85 => ⟨S1650000x128, .f32⟩
  | 86 => ⟨S1650000x128, .f32⟩
  | 87 => ⟨S_, .f32⟩
  | 88 => ⟨S50000x128, .f32⟩
  | 89 => ⟨S1650000x1, .i32⟩
  | 90 => ⟨S50000x128, .f32⟩
  | 91 => ⟨S1x128, .f32⟩
  | 92 => ⟨S50000x128, .f32⟩
  | 93 => ⟨S50000x128, .f32⟩
  | 94 => ⟨S_, .f32⟩
  | 95 => ⟨S50000x128, .f32⟩
  | 96 => ⟨S50000x128, .f32⟩
  | 97 => ⟨S50000x128, .f32⟩
  | 98 => ⟨S_, .i32⟩
  | 99 => ⟨S1650000, .i32⟩
  | 100 => ⟨S1650000, .i1⟩
  | 101 => ⟨S_, .i32⟩
  | 102 => ⟨S1650000, .i32⟩
  | 103 => ⟨S1650000, .i32⟩
  | 104 => ⟨S1650000, .i32⟩
  | 105 => ⟨S1650000x1, .i32⟩
  | 106 => ⟨S1650000x128, .f32⟩
  | 107 => ⟨S1650000x1, .f32⟩
  | 108 => ⟨S1650000x128, .f32⟩
  | 109 => ⟨S1650000x128, .f32⟩
  | 110 => ⟨S_, .f32⟩
  | 111 => ⟨S50000x128, .f32⟩
  | 112 => ⟨S1650000x1, .i32⟩
  | 113 => ⟨S50000x128, .f32⟩
  | 114 => ⟨S1x128, .f32⟩
  | 115 => ⟨S50000x128, .f32⟩
  | 116 => ⟨S50000x128, .f32⟩
  | 117 => ⟨S_, .f32⟩
  | 118 => ⟨S128, .f32⟩
  | 119 => ⟨S1x128, .f32⟩
  | 120 => ⟨S_, .f32⟩
  | 121 => ⟨S1x128, .f32⟩
  | 122 => ⟨S1x128, .f32⟩
  | 123 => ⟨S1x1, .f32⟩
  | 124 => ⟨S1x1, .f32⟩
  | 125 => ⟨S1x1, .f32⟩
  | 126 => ⟨S1x1, .f32⟩
  | 127 => ⟨S1x1, .f32⟩
  | _ => ⟨S50000x128, .f32⟩

abbrev hbmTy0_1 (i : Nat) : BufTy := match i % 128 with
  | 0 => ⟨S_, .f32⟩
  | 1 => ⟨S1x1, .f32⟩
  | 2 => ⟨S1x1, .f32⟩
  | 3 => ⟨S_, .f32⟩
  | 4 => ⟨S1x1, .f32⟩
  | 5 => ⟨S1x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_c_9 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_call2_cst : Ref sig .tc := ⟨.hbm, 94, rfl⟩
abbrev main_call2_v0 : Ref sig .tc := ⟨.hbm, 95, rfl⟩
abbrev main_v65 : Ref sig .tc := ⟨.hbm, 96, rfl⟩
abbrev main_v66 : Ref sig .tc := ⟨.hbm, 97, rfl⟩
abbrev main_c_12 : Ref sig .tc := ⟨.hbm, 98, rfl⟩
abbrev main_v67 : Ref sig .tc := ⟨.hbm, 99, rfl⟩
abbrev main_v68 : Ref sig .tc := ⟨.hbm, 100, rfl⟩
abbrev main_c_13 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_14 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_15 : Ref sig .tc := ⟨.hbm, 117, rfl⟩
abbrev main_v83 : Ref sig .tc := ⟨.hbm, 118, rfl⟩
abbrev main_v84 : Ref sig .tc := ⟨.hbm, 119, rfl⟩
abbrev main_cst_16 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_cst_17 : Ref sig .tc := ⟨.hbm, 128, rfl⟩
abbrev main_v92 : Ref sig .tc := ⟨.hbm, 129, rfl⟩
abbrev main_v93 : Ref sig .tc := ⟨.hbm, 130, rfl⟩
abbrev main_cst_18 : Ref sig .tc := ⟨.hbm, 131, rfl⟩
abbrev main_v94 : Ref sig .tc := ⟨.hbm, 132, rfl⟩
abbrev main_v95 : Ref sig .tc := ⟨.hbm, 133, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S1x128 : S_.BroadcastsInDim S1x128 (![] : Fin 0 → Fin S1x128.rank)
  bcast_S1_S1x1_1 : S1.BroadcastsInDim S1x1 (![1] : Fin 1 → Fin S1x1.rank)
  bcast_S_S1x1 : S_.BroadcastsInDim S1x1 (![] : Fin 0 → Fin S1x1.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x128_S128x128_S50000x128_1_0_0_1_n_n_wf : DotDims.WF S50000x128 S128x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S1x128_S128x1_S1x1_1_0_0_1_n_n_wf : DotDims.WF S1x128 S128x1 S1x1 [1] [0] [0] [1] [] []

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S1x128_S128x1_S1x1_1_0_0_1_n_n : DotDims S1x128 S128x1 S1x1 where
  lhsContracting := [1]
  rhsContracting := [0]
  lhsNonContracting := [0]
  rhsNonContracting := [1]
  lhsBatch := []
  rhsBatch := []
  wf := dot_S1x128_S128x1_S1x1_1_0_0_1_n_n_wf

class Facts : Prop extends Facts₀ where

variable [Facts]
-- ==== Proof.LastBoundary.lean ====
/-
  The idealized kernel's whole run with its RESULT named: every weakly fair execution of @main terminates, the
  argument arrays end as launched, and the result buffer ends holding what the last of the thirteen segment boundaries
  holds there (`Gen.W13`: the launch contents folded through the seven stretches of host operations and the six kernel
  regions, each region leaving its output array at its ten write-backs). The frame claim keeps only the arguments of
  that last boundary; the value claim needs the result too.
-/
import proofs.«144275_j68049461838507_1_alg».proof.Proof.Gen.KernelIdeal.Frame

set_option maxRecDepth 16384

noncomputable section

namespace Cert.KernelIdeal.LastBoundary

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, read at the last boundary: the result buffer at `W13`'s contents, each argument as launched. -/
theorem run : θ_run defs (onTc (τ := τ) (main (F := F))) ⟨m, fun _ => 0, ρ⟩ (fun r => ∀ c : Dev nD,
      r.2.mem ((c.tc : Thread nD τ).loc main_v90) = W13 m ρ c (Proc.devRef .tc main_v90)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v90 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c)⟩)

end Cert.KernelIdeal.LastBoundary

end
-- ==== Proof.HostStages.lean ====
/-
  The host side of a three-layer graph convolution, as functions of whole arrays, and the network as ONE function of
  its arguments and of its two dense stages.

  Both programs run these operations themselves, in the same order and with the same literals; only the dense stages
  (features times weights; bias and rectifier) are computed differently. So the network is written once,
  parametrized by those stages:
  * `srcIdx e`, `dstIdx e` — row 0 / row 1 of the 2 x 1600000 edge list, each followed by 0 … 49999 (one self loop per
    node): 1650000 edges.
  * `degree d` — the number of edges arriving at each node (ones scatter-added at `d`); `invSqrtDeg d` — its
    reciprocal square root where the degree is positive, 0 elsewhere.
  * `startIdx ix` — indices wrapped the way jnp indexing wraps negatives (ix + 50000 where ix < 0), as a column.
  * `edgeNorm s d` — per edge, invSqrtDeg at its source times invSqrtDeg at its destination.
  * `aggregate h s d n` — for every node, the sum over its incoming edges of the source's row of h scaled by the
    edge's norm (gather the rows at `s`, scale, scatter-add at `d` into zeros).
  * `readout h wl bl` — the mean over the nodes, a 128 x 1 linear map, a bias, and the logistic function
    1 / (1 + exp (-.)).
  * `network dense act act3` — three layers  act (aggregate (dense h W) …) b  (the third with `act3`), then the readout.
-/
import proofs.«144275_j68049461838507_1_alg».proof.Proof.Gen.KernelIdeal

noncomputable section

namespace Cert.GcnHost

open Cert.KernelIdeal Cert.KernelIdeal.Facts₀ Cert.KernelIdeal.Facts Idealize.ShloMosaic

variable {F : FTy → Type} [FloatOps F]

/-- The edges' endpoints followed by the self loops' (a concatenation along the one axis). -/
def joinLoops (a : (⟨S1600000, .i32⟩ : BufTy).Contents (Elt F)) (b : (⟨S50000, .i32⟩ : BufTy).Contents (Elt F)) : (⟨S1650000, .i32⟩ : BufTy).Contents (Elt F) :=
  concatenate S1650000 0 [⟨S1600000, a⟩, ⟨S50000, b⟩] concatenates_S1600000_S50000_S1650000_d0

/-- Every edge's source node, then every self loop's. -/
def srcIdx (e : (⟨S2x1600000, .i32⟩ : BufTy).Contents (Elt F)) : (⟨S1650000, .i32⟩ : BufTy).Contents (Elt F) :=
  joinLoops (F := F) (shapeCast S1600000 (extractStridedSlice S1x1600000 ![0, 0] e slices_S2x1600000_S1x1600000_0_0) shapeCasts_S1x1600000_S1600000)
    (iotaInDim S50000 32 0)

/-- Every edge's destination node, then every self loop's. -/
def dstIdx (e : (⟨S2x1600000, .i32⟩ : BufTy).Contents (Elt F)) : (⟨S1650000, .i32⟩ : BufTy).Contents (Elt F) :=
  joinLoops (F := F) (shapeCast S1600000 (extractStridedSlice S1x1600000 ![1, 0] e slices_S2x1600000_S1x1600000_1_0) shapeCasts_S1x1600000_S1600000)
    (iotaInDim S50000 32 0)

/-- The number of edges arriving at each node: ones, scatter-added at the destinations into zeros. -/
def degree (d : (⟨S1650000, .i32⟩ : BufTy).Contents (Elt F)) : (⟨S50000, .f32⟩ : BufTy).Contents (Elt F) :=
  Host.scatterAdd scatter_S50000_S1650000x1_S1650000_n_0_0_1
    (broadcastInDim S50000 ![] bcast_S_S50000 (constant S_ .f32 0x00000000#32))
    (broadcastInDim S1650000x1 ![0] bcast_S1650000_S1650000x1_0 d)
    (broadcastInDim S1650000 ![] bcast_S_S1650000 (constant S_ .f32 0x3F800000#32))

/-- The reciprocal square root of the degree where it is positive, zero elsewhere. -/
def invSqrtDeg (d : (⟨S1650000, .i32⟩ : BufTy).Contents (Elt F)) : (⟨S50000, .f32⟩ : BufTy).Contents (Elt F) :=
  select (cmpf .ogt (degree (F := F) d) (broadcastInDim S50000 ![] bcast_S_S50000 (constant S_ .f32 0x00000000#32)))
    (Host.rsqrt (degree (F := F) d))
    (broadcastInDim S50000 ![] bcast_S_S50000 (id (constant S_ .f32 0x00000000#32)))

/-- Node indices as a column of start indices, negatives wrapped by the number of nodes. -/
def startIdx (ix : (⟨S1650000, .i32⟩ : BufTy).Contents (Elt F)) : (⟨S1650000x1, .i32⟩ : BufTy).Contents (Elt F) :=
  broadcastInDim S1650000x1 ![0] bcast_S1650000_S1650000x1_0
    (select (cmpi .slt ix (broadcastInDim S1650000 ![] bcast_S_S1650000 (constantI S_ 32 0#32)))
      (addi ix (broadcastInDim S1650000 ![] bcast_S_S1650000 (constantI S_ 32 50000#32))) ix)

/-- Per edge: the source's and the destination's reciprocal square-root degrees, multiplied. -/
def edgeNorm (s d : (⟨S1650000, .i32⟩ : BufTy).Contents (Elt F)) : (⟨S1650000, .f32⟩ : BufTy).Contents (Elt F) :=
  mulf (Host.gather gather_S50000_S1650000x1_S1650000_n_0_n_n_0_1_1 (invSqrtDeg (F := F) d) (startIdx (F := F) s))
    (Host.gather gather_S50000_S1650000x1_S1650000_n_0_n_n_0_1_1 (invSqrtDeg (F := F) d) (startIdx (F := F) d))

/-- Every node's incoming messages summed: the sources' rows gathered, scaled by the edges' norms, scatter-added
    at the destinations into zeros. -/
def aggregate (h : (⟨S50000x128, .f32⟩ : BufTy).Contents (Elt F)) (s d : (⟨S1650000, .i32⟩ : BufTy).Contents (Elt F)) (n : (⟨S1650000, .f32⟩ : BufTy).Contents (Elt F)) :
    (⟨S50000x128, .f32⟩ : BufTy).Contents (Elt F) :=
  Host.scatterAdd scatter_S50000x128_S1650000x1_S1650000x128_1_0_0_1
    (broadcastInDim S50000x128 ![] bcast_S_S50000x128 (constant S_ .f32 0x00000000#32))
    (broadcastInDim S1650000x1 ![0] bcast_S1650000_S1650000x1_0 d)
    (mulf (Host.gather gather_S50000x128_S1650000x1_S1650000x128_1_0_n_n_0_1_1128 h (startIdx (F := F) s))
      (broadcastInDim S1650000x128 ![0, 1] bcast_S1650000x1_S1650000x128_0_1
        (broadcastInDim S1650000x1 ![0] bcast_S1650000_S1650000x1_0 n)))

/-- The mean over the nodes, the final linear map and bias, and the logistic function. -/
def readout (h : (⟨S50000x128, .f32⟩ : BufTy).Contents (Elt F)) (wl : (⟨S128x1, .f32⟩ : BufTy).Contents (Elt F)) (bl : (⟨S1, .f32⟩ : BufTy).Contents (Elt F)) : (⟨S1x1, .f32⟩ : BufTy).Contents (Elt F) :=
  Host.divf (broadcastInDim S1x1 ![] bcast_S_S1x1 (constant S_ .f32 0x3F800000#32))
    (addf (broadcastInDim S1x1 ![] bcast_S_S1x1 (constant S_ .f32 0x3F800000#32))
      (Host.exp (Host.negf (addf
        (Host.dotGeneral dot_S1x128_S128x1_S1x1_1_0_0_1_n_n none
          (Host.divf (broadcastInDim S1x128 ![1] bcast_S128_S1x128_1
              (Host.reduceAdd h (constant S_ .f32 0x00000000#32) reducesTo_S50000x128_S128_d0 h_S_))
            (broadcastInDim S1x128 ![] bcast_S_S1x128 (constant S_ .f32 0x47435000#32)))
          wl)
        (broadcastInDim S1x1 ![1] bcast_S1_S1x1_1 bl)))))

/-- The three layers and the readout, over the two dense stages: `dense h W` (features times weights) and
    `act a b` / `act3 a b` (bias, with and without the rectifier). -/
def network
    (dense : (⟨S50000x128, .f32⟩ : BufTy).Contents (Elt F) → (⟨S128x128, .f32⟩ : BufTy).Contents (Elt F) → (⟨S50000x128, .f32⟩ : BufTy).Contents (Elt F))
    (act act3 : (⟨S50000x128, .f32⟩ : BufTy).Contents (Elt F) → (⟨S128, .f32⟩ : BufTy).Contents (Elt F) → (⟨S50000x128, .f32⟩ : BufTy).Contents (Elt F))
    (x : (⟨S50000x128, .f32⟩ : BufTy).Contents (Elt F)) (e : (⟨S2x1600000, .i32⟩ : BufTy).Contents (Elt F))
    (w1 : (⟨S128x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F))
    (w3 : (⟨S128x128, .f32⟩ : BufTy).Contents (Elt F)) (b3 : (⟨S128, .f32⟩ : BufTy).Contents (Elt F))
    (wl : (⟨S128x1, .f32⟩ : BufTy).Contents (Elt F)) (bl : (⟨S1, .f32⟩ : BufTy).Contents (Elt F)) : (⟨S1x1, .f32⟩ : BufTy).Contents (Elt F) :=
  readout (F := F)
    (act3 (aggregate (F := F) (dense
      (act (aggregate (F := F) (dense
        (act (aggregate (F := F) (dense x w1) (srcIdx (F := F) e) (dstIdx (F := F) e) (edgeNorm (F := F) (srcIdx (F := F) e) (dstIdx (F := F) e))) b1)
        w2) (srcIdx (F := F) e) (dstIdx (F := F) e) (edgeNorm (F := F) (srcIdx (F := F) e) (dstIdx (F := F) e))) b2)
      w3) (srcIdx (F := F) e) (dstIdx (F := F) e) (edgeNorm (F := F) (srcIdx (F := F) e) (dstIdx (F := F) e))) b3)
    wl bl

end Cert.GcnHost

end
-- ==== Proof.StageTactic.lean ====
/-
  Reading a stretch of host operations: what a buffer holds after the stretch, as the operations' functions of what
  the buffers held before it.

  `stage_results` computes `after ops V b` for a literal list of operations in one rewriting pass: each operation's
  result at its own result buffer is its function of its operands' contents, and at any other buffer what was there.
  A concatenation is folded into `joinLoops` as soon as it appears, so that its two operands stay ordinary
  arguments the pass can go on rewriting (inside the concatenation's list of shape-and-array pairs it cannot).
-/
import Idealize.ShloMosaic.Lib.StableHlo.Run
import proofs.«144275_j68049461838507_1_alg».proof.Proof.HostStages

noncomputable section

namespace Cert.GcnHost

open Cert.KernelIdeal Idealize.ShloMosaic Idealize.ShloMosaic.StableHlo

/-- Two index arrays joined along their one axis: `joinLoops`. -/
theorem join_fold {F : FTy → Type} [FloatOps F] (a : (⟨S1600000, .i32⟩ : BufTy).Contents (Elt F))
    (b : (⟨S50000, .i32⟩ : BufTy).Contents (Elt F)) (h) :
    concatenate S1650000 0 [⟨S1600000, a⟩, ⟨S50000, b⟩] h = joinLoops (F := F) a b := rfl

/-- `after ops V b` for a literal list of operations, one pass. -/
macro "stage_results" : tactic =>
  `(tactic| (simp (disch := decide) only [after_cons, after_nil,
      nullary_result', unary_result', binary_result', ternary_result', quaternary_result', reshape_result', nary4_result',
      nary_result', unaryIndexed_result', binaryIndexed_result',
      nullary_result_ne', unary_result_ne', binary_result_ne', ternary_result_ne', quaternary_result_ne', reshape_result_ne',
      nary_result_ne', unaryIndexed_result_ne', binaryIndexed_result_ne', Cert.GcnHost.join_fold]))

end Cert.GcnHost

end
-- ==== Proof.KernelStretches.lean ====
/-
  The idealized kernel's seven stretches of host operations, each read as a function of what the buffers hold when
  the stretch is entered (any contents V):
  * the opening three stretches (40 operations) leave the edge lists with self loops in %5 and %6 and the edges'
    norms in %29, all functions of the edge list %arg1, and touch no argument;
  * the stretch after each matrix-product region aggregates that region's output over the edges (%43, %59, %75) and
    reshapes the layer's bias to a row (%44, %60, %76), touching neither the edge lists, the norms, nor the arguments
    still to be read;
  * the closing stretch is the readout of region 5's output.
-/
import proofs.«144275_j68049461838507_1_alg».proof.Proof.Gen.KernelIdeal.Launch
import proofs.«144275_j68049461838507_1_alg».proof.Proof.StageTactic

set_option maxRecDepth 16384

noncomputable section

namespace Cert.KernelIdeal.Stretches

open Cert.KernelIdeal Cert.KernelIdeal.Facts₀ Cert.KernelIdeal.Facts Cert.KernelIdeal.Gen Cert.GcnHost
open Idealize.ShloMosaic Idealize.ShloMosaic.StableHlo

variable {F : FTy → Type} [FloatOps F] (V : Valuation τ sig (Elt F))

/-- The arguments the program reads after its opening stretches. -/
def arguments : List (Ref sig .tc) :=
  [main_arg0, main_arg3, main_arg4, main_arg5, main_arg6, main_arg7, main_arg8, main_arg9, main_arg10, main_arg1]

/-- What is carried from the opening stretches to later ones: the two edge lists, the norms, and the arguments read
    after the first region. -/
def carried : List (Ref sig .tc) :=
  [main_v5, main_v6, main_v29, main_arg4, main_arg5, main_arg6, main_arg7, main_arg8, main_arg9, main_arg10]

/-! ## The opening stretches -/

/-- %5: the sources with the self loops. -/
theorem opening_src : after hostOps0_2 (after hostOps0_1 (after hostOps0 V)) (Proc.devRef .tc main_v5)
    = srcIdx (F := F) (V (Proc.devRef .tc main_arg1)) := by
  dsimp only [hostOps0, hostOps0_1, hostOps0_2]
  stage_results
  rfl

/-- %6: the destinations with the self loops. -/
theorem opening_dst : after hostOps0_2 (after hostOps0_1 (after hostOps0 V)) (Proc.devRef .tc main_v6)
    = dstIdx (F := F) (V (Proc.devRef .tc main_arg1)) := by
  dsimp only [hostOps0, hostOps0_1, hostOps0_2]
  stage_results
  rfl

/-- %29: the edges' norms. -/
theorem opening_norm : after hostOps0_2 (after hostOps0_1 (after hostOps0 V)) (Proc.devRef .tc main_v29)
    = edgeNorm (F := F) (srcIdx (F := F) (V (Proc.devRef .tc main_arg1))) (dstIdx (F := F) (V (Proc.devRef .tc main_arg1))) := by
  dsimp only [hostOps0, hostOps0_1, hostOps0_2]
  stage_results
  rfl

/-- The opening stretches write no argument. -/
theorem opening_keeps (b : Ref sig .tc) (hb : b ∈ arguments) :
    after hostOps0_2 (after hostOps0_1 (after hostOps0 V)) (Proc.devRef .tc b) = V (Proc.devRef .tc b) := by
  simp only [arguments, List.mem_cons, List.not_mem_nil, or_false] at hb
  rcases hb with rfl | rfl | rfl | rfl | rfl | rfl | rfl | rfl | rfl | rfl <;>
    (dsimp only [hostOps0, hostOps0_1, hostOps0_2]; stage_results)

/-! ## The stretch after layer 1's matrix product -/

/-- %43: the product's rows aggregated over the edges. -/
theorem agg1 : after hostOps1 V (Proc.devRef .tc main_v43)
    = aggregate (F := F) (V (Proc.devRef .tc main_v30)) (V (Proc.devRef .tc main_v5)) (V (Proc.devRef .tc main_v6)) (V (Proc.devRef .tc main_v29)) := by
  dsimp only [hostOps1]
  stage_results
  rfl

/-- %44: layer 1's bias as a 1 x 128 row. -/
theorem row1 : after hostOps1 V (Proc.devRef .tc main_v44) = shapeCast S1x128 (V (Proc.devRef .tc main_arg4)) Facts₀.shapeCasts_S128_S1x128 := by
  dsimp only [hostOps1]
  stage_results
  rfl

/-- The stretch writes none of the carried buffers. -/
theorem keep1 (b : Ref sig .tc) (hb : b ∈ carried) : after hostOps1 V (Proc.devRef .tc b) = V (Proc.devRef .tc b) := by
  simp only [carried, List.mem_cons, List.not_mem_nil, or_false] at hb
  rcases hb with rfl | rfl | rfl | rfl | rfl | rfl | rfl | rfl | rfl | rfl <;> (dsimp only [hostOps1]; stage_results)

/-! ## The stretch after layer 2's matrix product -/

/-- %59: the product's rows aggregated over the edges. -/
theorem agg3 : after hostOps3 V (Proc.devRef .tc main_v59)
    = aggregate (F := F) (V (Proc.devRef .tc main_v46)) (V (Proc.devRef .tc main_v5)) (V (Proc.devRef .tc main_v6)) (V (Proc.devRef .tc main_v29)) := by
  dsimp only [hostOps3]
  stage_results
  rfl

/-- %60: layer 2's bias as a 1 x 128 row. -/
theorem row3 : after hostOps3 V (Proc.devRef .tc main_v60) = shapeCast S1x128 (V (Proc.devRef .tc main_arg6)) Facts₀.shapeCasts_S128_S1x128 := by
  dsimp only [hostOps3]
  stage_results
  rfl

/-- The stretch writes none of the carried buffers. -/
theorem keep3 (b : Ref sig .tc) (hb : b ∈ carried) : after hostOps3 V (Proc.devRef .tc b) = V (Proc.devRef .tc b) := by
  simp only [carried, List.mem_cons, List.not_mem_nil, or_false] at hb
  rcases hb with rfl | rfl | rfl | rfl | rfl | rfl | rfl | rfl | rfl | rfl <;> (dsimp only [hostOps3]; stage_results)

/-! ## The stretch after layer 3's matrix product -/

/-- %75: the product's rows aggregated over the edges. -/
theorem agg5 : after hostOps5 V (Proc.devRef .tc main_v75)
    = aggregate (F := F) (V (Proc.devRef .tc main_v62)) (V (Proc.devRef .tc main_v5)) (V (Proc.devRef .tc main_v6)) (V (Proc.devRef .tc main_v29)) := by
  dsimp only [hostOps5]
  stage_results
  rfl

/-- %76: layer 3's bias as a 1 x 128 row. -/
theorem row5 : after hostOps5 V (Proc.devRef .tc main_v76) = shapeCast S1x128 (V (Proc.devRef .tc main_arg8)) Facts₀.shapeCasts_S128_S1x128 := by
  dsimp only [hostOps5]
  stage_results
  rfl

/-- The stretch writes none of the carried buffers. -/
theorem keep5 (b : Ref sig .tc) (hb : b ∈ carried) : after hostOps5 V (Proc.devRef .tc b) = V (Proc.devRef .tc b) := by
  simp only [carried, List.mem_cons, List.not_mem_nil, or_false] at hb
  rcases hb with rfl | rfl | rfl | rfl | rfl | rfl | rfl | rfl | rfl | rfl <;> (dsimp only [hostOps5]; stage_results)

/-! ## The closing stretch -/

/-- %90, the result: the readout of the last region's output. -/
theorem readout6 : after hostOps6 V (Proc.devRef .tc main_v90)
    = readout (F := F) (V (Proc.devRef .tc main_v77)) (V (Proc.devRef .tc main_arg9)) (V (Proc.devRef .tc main_arg10)) := by
  dsimp only [hostOps6]
  stage_results
  rfl

end Cert.KernelIdeal.Stretches

end
-- ==== Proof.LibDotRow.lean ====
/-
  A matrix product with ONE contracted axis, read at an index, as a sum over the contracted coordinate.

  For dimension numbers `d` of an [M, K] by [K, N] product into [M, N] — the left operand contracted on its
  second axis, the right one on its first — the sum over the contraction index set of
  `L (d.lhsIdx (p, f) k) * R (d.rhsIdx (p, f) k)` is `∑ k : Fin K, L (p, k) * R (k, f)`: the contraction index
  is its one coordinate, the left operand's row is the output's row and the right operand's column the
  output's column. The matrix unit's product into a zero accumulator and the host's `dot_general`, read at
  the exact values, are both that sum.
-/
import Idealize.ShloMosaic.Lib.ValueIdx
import Idealize.ShloMosaic.PureOps.Ideal.Laws

noncomputable section

namespace Idealize.ShloMosaic.DotRow

open Idealize.ShloMosaic Idealize.ShloMosaic.ValueIdx

variable {M K N : Nat}

/-- The contraction's sum over its index set is the sum over the contracted coordinate. -/
theorem sum_contr (d : DotDims ⟨2, ![M, K]⟩ ⟨2, ![K, N]⟩ ⟨2, ![M, N]⟩)
    (hl : d.lhsContracting = [1]) (hr : d.rhsContracting = [0])
    (hrank : d.contr.rank = 1) (hsize : d.contr.size ⟨0, by omega⟩ = K)
    (h0 : ∀ (j : (⟨2, ![M, N]⟩ : Shape).Idx) (k : d.contr.Idx), (d.lhsIdx j k 0).val = (j 0).val)
    (h1 : ∀ (j : (⟨2, ![M, N]⟩ : Shape).Idx) (k : d.contr.Idx), (d.rhsIdx j k 1).val = (j 1).val)
    (L : (⟨2, ![M, K]⟩ : Shape).Idx → EReal) (R : (⟨2, ![K, N]⟩ : Shape).Idx → EReal) (p : Fin M) (f : Fin N) :
    ∑ k : d.contr.Idx, L (d.lhsIdx (ix2 p f) k) * R (d.rhsIdx (ix2 p f) k) = ∑ k : Fin K, L (ix2 p k) * R (ix2 k f) := by
  rw [← Equiv.sum_comp (contrEquiv1 d K hrank hsize).symm]
  refine Finset.sum_congr rfl fun k _ => ?_
  have el : d.lhsIdx (ix2 p f) ((contrEquiv1 d K hrank hsize).symm k) = ix2 p k := by
    funext a; apply Fin.ext
    match a with
    | ⟨0, _⟩ => exact h0 _ _
    | ⟨1, _⟩ =>
      show (d.lhsIdx (ix2 p f) ((contrEquiv1 d K hrank hsize).symm k) 1).val = k.val
      rw [d.lhsIdx_val_of_single hl]
      exact contrEquiv1_symm_val d K hrank hsize k
  have er : d.rhsIdx (ix2 p f) ((contrEquiv1 d K hrank hsize).symm k) = ix2 k f := by
    funext a; apply Fin.ext
    match a with
    | ⟨0, _⟩ =>
      show (d.rhsIdx (ix2 p f) ((contrEquiv1 d K hrank hsize).symm k) 0).val = k.val
      rw [d.rhsIdx_val_of_single hr]
      exact contrEquiv1_symm_val d K hrank hsize k
    | ⟨1, _⟩ => exact h1 _ _
  rw [el, er]

end Idealize.ShloMosaic.DotRow

end
-- ==== Proof.BlockBodies.lean ====
/-
  What each kernel body computes for ONE block of 5000 nodes, read at a row p of the block and a feature f, on the
  extended reals.

  The three matrix-product bodies round both operands to a narrower float format (the identity on the exact
  values) and multiply into a zero accumulator: entry (p, f) is the sum over k of block (p, k) * weights (k, f).
  The three bias bodies add the 1 x 128 bias row to every row of the block (the row is broadcast along the node
  axis); the first two then take the maximum with zero.
-/
import proofs.«144275_j68049461838507_1_alg».proof.Proof.Gen.KernelIdeal.Skeleton
import proofs.«144275_j68049461838507_1_alg».proof.Proof.LibDotRow
import Idealize.ShloMosaic.Lib.Pipeline.Value
import Idealize.ShloMosaic.Lib.ValueIdx
import Idealize.ShloMosaic.PureOps.Ideal.Laws

noncomputable section

namespace Cert.KernelIdeal.BlockBodies

open Cert.KernelIdeal Cert.KernelIdeal.Gen Idealize.ShloMosaic Idealize.ShloMosaic.ValueIdx

/-- The left operand of the block product is read at the output's row. -/
theorem lhs_row (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- The right operand of the block product is read at the output's column. -/
theorem rhs_col (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A block of rows times the weights into a zero accumulator, at (p, f): the sum over the contracted coordinate. -/
theorem rows_times_weights {φ₁ φ₂ : FTy} (a : FVec Ideal S5000x128 φ₁) (b : FVec Ideal S128x128 φ₂) (p : Fin 5000) (f : Fin 128) :
    FloatOps.matmul dot_S5000x128_S128x128_S5000x128_1_0_0_1_n_n none a b (constant S5000x128 .f32 0x00000000#32) (ix2 p f)
      = ∑ k : Fin 128, a (ix2 p k) * b (ix2 k f) :=
  (Ideal.matmul_constant_zero_apply dot_S5000x128_S128x128_S5000x128_1_0_0_1_n_n none a b (ix2 p f)).trans
    (DotRow.sum_contr dot_S5000x128_S128x128_S5000x128_1_0_0_1_n_n rfl rfl rfl rfl lhs_row rhs_col a b p f)

/-- Layer 1's product body at (p, f). -/
theorem matmul0_at (x0 : Vec Ideal S5000x128 .f32) (x1 : Vec Ideal S128x128 .f32) (p : Fin 5000) (f : Fin 128) :
    k0_pay1 (F := Ideal) x0 x1 (ix2 p f) = ∑ k : Fin 128, x0 (ix2 p k) * x1 (ix2 k f) := by
  unfold k0_pay1
  exact rows_times_weights (truncf .bf16 x0 bitsLt_bf16_f32) (truncf .bf16 x1 bitsLt_bf16_f32) p f

/-- Layer 2's product body at (p, f) (its block passes through a reshape to its own shape first). -/
theorem matmul2_at (x0 : Vec Ideal S5000x128 .f32) (x1 : Vec Ideal S128x128 .f32) (p : Fin 5000) (f : Fin 128) :
    k2_pay1 (F := Ideal) x0 x1 (ix2 p f) = ∑ k : Fin 128, x0 (ix2 p k) * x1 (ix2 k f) := by
  unfold k2_pay1
  refine (rows_times_weights (truncf .bf16 (shapeCast S5000x128 x0 shapeCasts_S5000x128_S5000x128) bitsLt_bf16_f32)
    (truncf .bf16 x1 bitsLt_bf16_f32) p f).trans ?_
  refine Finset.sum_congr rfl fun k _ => ?_
  exact congrArg (· * x1 (ix2 k f)) (congrFun (shapeCast_self x0 shapeCasts_S5000x128_S5000x128) (ix2 p k))

/-- Layer 3's product body at (p, f). -/
theorem matmul4_at (x0 : Vec Ideal S5000x128 .f32) (x1 : Vec Ideal S128x128 .f32) (p : Fin 5000) (f : Fin 128) :
    k4_pay1 (F := Ideal) x0 x1 (ix2 p f) = ∑ k : Fin 128, x0 (ix2 p k) * x1 (ix2 k f) := by
  unfold k4_pay1
  refine (rows_times_weights (truncf .bf16 (shapeCast S5000x128 x0 shapeCasts_S5000x128_S5000x128) bitsLt_bf16_f32)
    (truncf .bf16 x1 bitsLt_bf16_f32) p f).trans ?_
  refine Finset.sum_congr rfl fun k _ => ?_
  exact congrArg (· * x1 (ix2 k f)) (congrFun (shapeCast_self x0 shapeCasts_S5000x128_S5000x128) (ix2 p k))

/-- The bias row, reshaped to its own shape and broadcast along the node axis, read at (p, f): the row at f. -/
theorem bias_row_at (x2 : Vec Ideal S1x128 .f32) (p : Fin 5000) (f : Fin 128) :
    broadcastTo S5000x128 (shapeCast S1x128 x2 shapeCasts_S1x128_S1x128) broadcasts_S1x128_S5000x128 (ix2 p f)
      = x2 (ix2 0 f) := by
  rw [shapeCast_self]
  exact broadcastTo_apply x2 broadcasts_S1x128_S5000x128 (ix2 p f) (ix2 0 f) (fun a => match a with
    | ⟨0, _⟩ => by show 0 = if (1 : Nat) = 1 then 0 else _; rw [if_pos rfl]
    | ⟨1, _⟩ => by show f.val = if (128 : Nat) = 1 then 0 else f.val; rw [if_neg (by decide)])

/-- The block added to the broadcast bias row, at (p, f). -/
theorem block_plus_bias_at (x0 : Vec Ideal S5000x128 .f32) (x2 : Vec Ideal S1x128 .f32) (p : Fin 5000) (f : Fin 128) :
    addf (F := Ideal) (φ := .f32) (shapeCast S5000x128 x0 shapeCasts_S5000x128_S5000x128)
        (broadcastTo S5000x128 (shapeCast S1x128 x2 shapeCasts_S1x128_S1x128) broadcasts_S1x128_S5000x128) (ix2 p f)
      = x0 (ix2 p f) + x2 (ix2 0 f) := by
  rw [addf_apply, bias_row_at, shapeCast_self]

/-- Layer 1's bias body at (p, f): the block plus the bias row, then the maximum with zero. -/
theorem bias1_at (x0 : Vec Ideal S5000x128 .f32) (x2 : Vec Ideal S1x128 .f32) (p : Fin 5000) (f : Fin 128) :
    k1_pay1 (F := Ideal) x0 x2 (ix2 p f) = max (x0 (ix2 p f) + x2 (ix2 0 f)) (Ideal.ofBits .f32 0x00000000#32) := by
  unfold k1_pay1
  exact congrArg (max · (Ideal.ofBits .f32 0x00000000#32)) (block_plus_bias_at x0 x2 p f)

/-- Layer 2's bias body at (p, f). -/
theorem bias3_at (x0 : Vec Ideal S5000x128 .f32) (x2 : Vec Ideal S1x128 .f32) (p : Fin 5000) (f : Fin 128) :
    k3_pay1 (F := Ideal) x0 x2 (ix2 p f) = max (x0 (ix2 p f) + x2 (ix2 0 f)) (Ideal.ofBits .f32 0x00000000#32) := by
  unfold k3_pay1
  exact congrArg (max · (Ideal.ofBits .f32 0x00000000#32)) (block_plus_bias_at x0 x2 p f)

/-- Layer 3's bias body at (p, f): no rectifier. -/
theorem bias5_at (x0 : Vec Ideal S5000x128 .f32) (x2 : Vec Ideal S1x128 .f32) (p : Fin 5000) (f : Fin 128) :
    k5_pay1 (F := Ideal) x0 x2 (ix2 p f) = x0 (ix2 p f) + x2 (ix2 0 f) := by
  unfold k5_pay1
  exact block_plus_bias_at x0 x2 p f

end Cert.KernelIdeal.BlockBodies

end
-- ==== Proof.DenseStages.lean ====
/-
  The dense stages of one graph-convolution layer over 50000 nodes with 128 features, each as ONE function of
  whole arrays, index by index, on the extended reals.

  * `transform x w` — every node's feature row times a 128 x 128 weight matrix: entry (n, f) is the sum over k
    of x (n, k) * w (k, f).
  * `biasRect a b` — a bias row b (kept as a 1 x 128 array) added to every node's row of a, then the rectifier
    max (., 0).
  * `biasAdd a b` — the same without the rectifier (the last layer).

  A kernel that computes a stage block of rows by block of rows, and a host program that computes it in one
  operation on the whole array, both end at these functions: a block of rows of `transform x w` depends only on the
  same rows of x, and a sum over the contracted coordinate does not depend on how the rows were tiled.
-/
import Idealize.ShloMosaic.Lib.ValueIdx
import Idealize.ShloMosaic.PureOps.Ideal.Laws

noncomputable section

namespace Cert.GcnDense

open Idealize.ShloMosaic Idealize.ShloMosaic.ValueIdx

/-- Node features: 50000 nodes by 128 features. -/
abbrev Feat : Shape := ⟨2, ![50000, 128]⟩
/-- A weight matrix. -/
abbrev Wt : Shape := ⟨2, ![128, 128]⟩
/-- A bias, as one row. -/
abbrev BiasRow : Shape := ⟨2, ![1, 128]⟩

/-- Every node's feature row times the weight matrix. -/
def transform (x : Feat.Idx → EReal) (w : Wt.Idx → EReal) : Feat.Idx → EReal :=
  fun i => ∑ k : Fin 128, x (ix2 (i 0) k) * w (ix2 k (i 1))

/-- The bias row added to every node's row, then the rectifier. The zero is kept as the float pattern both
    programs write it with. -/
def biasRect (a : Feat.Idx → EReal) (b : BiasRow.Idx → EReal) : Feat.Idx → EReal :=
  fun i => max (a i + b (ix2 0 (i 1))) (Ideal.ofBits .f32 0x00000000#32)

/-- The bias row added to every node's row. -/
def biasAdd (a : Feat.Idx → EReal) (b : BiasRow.Idx → EReal) : Feat.Idx → EReal :=
  fun i => a i + b (ix2 0 (i 1))

/-- `transform` at an index. -/
theorem transform_apply (x : Feat.Idx → EReal) (w : Wt.Idx → EReal) (i : Feat.Idx) :
    transform x w i = ∑ k : Fin 128, x (ix2 (i 0) k) * w (ix2 k (i 1)) := rfl

/-- `biasRect` at an index. -/
theorem biasRect_apply (a : Feat.Idx → EReal) (b : BiasRow.Idx → EReal) (i : Feat.Idx) :
    biasRect a b i = max (a i + b (ix2 0 (i 1))) (Ideal.ofBits .f32 0x00000000#32) := rfl

/-- `biasAdd` at an index. -/
theorem biasAdd_apply (a : Feat.Idx → EReal) (b : BiasRow.Idx → EReal) (i : Feat.Idx) :
    biasAdd a b i = a i + b (ix2 0 (i 1)) := rfl

end Cert.GcnDense

end
-- ==== Proof.RegionArrays.lean ====
/-
  What each of the idealized kernel's six regions leaves in its output array, as ONE function of its two input arrays.

  Every region runs its kernel at ten grid points; point t stages rows 5000 t … 5000 t + 4999 of the node array, the
  whole second operand (weights, or the bias row), and writes back the same rows of the output array. What a point
  writes is therefore the block of ONE whole-array function of the region's input arrays (a row of the output depends
  only on the same row of the input), the ten blocks tile the output, and the array the region leaves IS that
  function: `arrayK`. Stated at any contents V of the buffers at the region's entry.
-/
import proofs.«144275_j68049461838507_1_alg».proof.Proof.Gen.KernelIdeal.Frame
import proofs.«144275_j68049461838507_1_alg».proof.Proof.BlockBodies
import proofs.«144275_j68049461838507_1_alg».proof.Proof.DenseStages
import Idealize.ShloMosaic.Lib.Pipeline.Value
import Idealize.ShloMosaic.Lib.ValueIdx

set_option maxRecDepth 16384

noncomputable section

namespace Cert.KernelIdeal.RegionArrays

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- Every load and store of the bodies starts at the origin of its staging buffer. -/
theorem zeros2 : (![0, 0] : Fin 2 → Nat) = fun _ => 0 := funext fun a => by fin_cases a <;> rfl

/-! ## Region 0: layer 1, node features times W1 -/

/-- The printed index maps over the ten grid points: the block of node rows read and the block written are the same rows (block t is rows 5000 t … 5000 t + 4999), and the weights are fetched whole. -/
theorem rows0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of `transform` of the region's two input arrays as it finds them. -/
theorem flushed0 (c : Dev nD) (t : Fin cfg0.N) :
    (dat0 V c).flushed 2 t
      = ((cfg0.win 2).blk t).view.read (Elt Ideal) (GcnDense.transform (V c main_arg0) (V c main_arg3)) := by
  show (cfg0.win 2).cut (grid0.coords t) ((dat0 V c).after 2 t) = _
  rw [after0_2]
  unfold out0_2
  rw [View.canon_unit_zero zeros2]
  simp only [View.ld_unit_zero (S := S5000x128) zeros2, View.ld_unit_zero (S := S128x128) zeros2]
  obtain ⟨e0, e1, e2, e3, e4, e5⟩ := rows0 t
  funext j
  obtain ⟨q, f, rfl⟩ : ∃ (q : Fin 5000) (f : Fin 128), j = ix2 q f := ⟨j 0, j 1, eq_ix2 j⟩
  refine (BlockBodies.matmul0_at (fun y => V c main_arg0 (((cfg0.win 0).blk t).view.emb y))
    (fun y => V c main_arg3 (((cfg0.win 1).blk t).view.emb y)) q f).trans ?_
  refine Eq.trans ?_ (GcnDense.transform_apply (V c main_arg0) (V c main_arg3) (((cfg0.win 2).blk t).view.emb (ix2 q f))).symm
  refine Finset.sum_congr rfl fun k _ => ?_
  have hx : ((cfg0.win 0).blk t).view.emb (ix2 q k) = ix2 ((((cfg0.win 2).blk t).view.emb (ix2 q f)) 0) k := by
    funext a; apply Fin.ext
    match a with
    | ⟨0, _⟩ => show win0_0.index t (0 : Fin 2) * 5000 + 1 * q.val = win0_2.index t (0 : Fin 2) * 5000 + 1 * q.val; omega
    | ⟨1, _⟩ => show win0_0.index t (1 : Fin 2) * 128 + 1 * k.val = k.val; omega
  have hw : ((cfg0.win 1).blk t).view.emb (ix2 k f) = ix2 k ((((cfg0.win 2).blk t).view.emb (ix2 q f)) 1) := by
    funext a; apply Fin.ext
    match a with
    | ⟨0, _⟩ => show win0_1.index t (0 : Fin 2) * 128 + 1 * k.val = k.val; omega
    | ⟨1, _⟩ => show win0_1.index t (1 : Fin 2) * 128 + 1 * f.val = win0_2.index t (1 : Fin 2) * 128 + 1 * f.val; omega
  exact congrArg₂ (fun (u v : EReal) => u * v) (congrArg (V c main_arg0) hx) (congrArg (V c main_arg3) hw)

/-- An index of the output array is in point t's block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v30).slice (win0_2.rect t)).set ↔ _
  rw [View.set_slice_whole, Rect.mem_set_unit]
  exact Iff.rfl

/-- The ten blocks of 5000 rows tile the 50000 rows: node n is in block n / 5000. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  refine ⟨⟨(i 0).val / 5000, by rw [hN]; omega⟩, flush0_2 _, ?_⟩
  obtain ⟨-, -, -, -, e4, e5⟩ := rows0 ⟨(i 0).val / 5000, by rw [hN]; omega⟩
  rw [mem_blk0]
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000; omega
  | ⟨1, _⟩ =>
    show win0_2.index _ (1 : Fin 2) * 128 ≤ (i 1).val ∧ (i 1).val < win0_2.index _ (1 : Fin 2) * 128 + 128
    rw [e5]; omega

/-- THE ARRAY region 0 leaves: `transform` of its two input arrays, whole. -/
theorem array0 (c : Dev nD) : (dat0 V c).arrAt 2 cfg0.N = GcnDense.transform (V c main_arg0) (V c main_arg3) :=
  (dat0 V c).arrAt_eq_of_cover 2 _ (fun t _ => flushed0 V c t) cover0

/-! ## Region 1: layer 1, bias row and rectifier -/

/-- The printed index maps over the ten grid points: the block of node rows read and the block written are the same rows (block t is rows 5000 t … 5000 t + 4999), and the bias row is fetched whole. -/
theorem rows1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of `biasRect` of the region's two input arrays as it finds them. -/
theorem flushed1 (c : Dev nD) (t : Fin cfg1.N) :
    (dat1 V c).flushed 2 t
      = ((cfg1.win 2).blk t).view.read (Elt Ideal) (GcnDense.biasRect (V c main_v43) (V c main_v44)) := by
  show (cfg1.win 2).cut (grid1.coords t) ((dat1 V c).after 2 t) = _
  rw [after1_2]
  unfold out1_2
  rw [View.canon_unit_zero zeros2]
  simp only [View.ld_unit_zero (S := S5000x128) zeros2, View.ld_unit_zero (S := S1x128) zeros2]
  obtain ⟨e0, e1, e2, e3, e4, e5⟩ := rows1 t
  funext j
  obtain ⟨q, f, rfl⟩ : ∃ (q : Fin 5000) (f : Fin 128), j = ix2 q f := ⟨j 0, j 1, eq_ix2 j⟩
  refine (BlockBodies.bias1_at (fun y => V c main_v43 (((cfg1.win 0).blk t).view.emb y))
    (fun y => V c main_v44 (((cfg1.win 1).blk t).view.emb y)) q f).trans ?_
  have hx : ((cfg1.win 0).blk t).view.emb (ix2 q f) = ((cfg1.win 2).blk t).view.emb (ix2 q f) := by
    funext a; apply Fin.ext
    match a with
    | ⟨0, _⟩ => show win1_0.index t (0 : Fin 2) * 5000 + 1 * q.val = win1_2.index t (0 : Fin 2) * 5000 + 1 * q.val; omega
    | ⟨1, _⟩ => show win1_0.index t (1 : Fin 2) * 128 + 1 * f.val = win1_2.index t (1 : Fin 2) * 128 + 1 * f.val; omega
  have hb : ((cfg1.win 1).blk t).view.emb (ix2 (0 : Fin 1) f) = ix2 (0 : Fin 1) ((((cfg1.win 2).blk t).view.emb (ix2 q f)) 1) := by
    funext a; apply Fin.ext
    match a with
    | ⟨0, _⟩ => show win1_1.index t (0 : Fin 2) * 1 + 1 * 0 = 0; omega
    | ⟨1, _⟩ => show win1_1.index t (1 : Fin 2) * 128 + 1 * f.val = win1_2.index t (1 : Fin 2) * 128 + 1 * f.val; omega
  refine Eq.trans ?_ (GcnDense.biasRect_apply (V c main_v43) (V c main_v44) (((cfg1.win 2).blk t).view.emb (ix2 q f))).symm
  exact congrArg₂ (fun (u v : EReal) => max (u + v) (Ideal.ofBits .f32 0x00000000#32)) (congrArg (V c main_v43) hx) (congrArg (V c main_v44) hb)

/-- An index of the output array is in point t's block iff each coordinate is in the block's range on its axis. -/
theorem mem_blk1 (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v45).slice (win1_2.rect t)).set ↔ _
  rw [View.set_slice_whole, Rect.mem_set_unit]
  exact Iff.rfl

/-- The ten blocks of 5000 rows tile the 50000 rows: node n is in block n / 5000. -/
theorem cover1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  refine ⟨⟨(i 0).val / 5000, by rw [hN]; omega⟩, flush1_2 _, ?_⟩
  obtain ⟨-, -, -, -, e4, e5⟩ := rows1 ⟨(i 0).val / 5000, by rw [hN]; omega⟩
  rw [mem_blk1]
  intro a
  match a with
  | ⟨0, _⟩ =>
    show win1_2.index _ (0 : Fin 2) * 5000 ≤ (i 0).val ∧ (i 0).val < win1_2.index _ (0 : Fin 2) * 5000 + 5000
    rw [e4]; show (i 0).val / 5000 * 5000 ≤ (i 0).val ∧ (i 0).val < (i 0).val / 5000 * 5000 + 5000; omega
  | ⟨1, _⟩ =>
    show win1_2.index _ (1 : Fin 2) * 128 ≤ (i 1).val ∧ (i 1).val < win1_2.index _ (1 : Fin 2) * 128 + 128
    rw [e5]; omega

/-- THE ARRAY region 1 leaves: `biasRect` of its two input arrays, whole. -/
theorem array1 (c : Dev nD) : (dat1 V c).arrAt 2 cfg1.N = GcnDense.biasRect (V c main_v43) (V c main_v44) :=
  (dat1 V c).arrAt_eq_of_cover 2 _ (fun t _ => flushed1 V c t) cover1

/-! ## Region 2: layer 2, layer 1's output times W2 -/

/-- The printed index maps over the ten grid points: the block of node rows read and the block written are the same rows (block t is rows 5000 t … 5000 t + 4999), and the weights are fetched whole. -/
theorem rows2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of `transform` of the region's two input arrays as it finds them. -/
theorem flushed2 (c : Dev nD) (t : Fin cfg2.N) :
    (dat2 V c).flushed 2 t
      = ((cfg2.win 2).blk t).view.read (Elt Ideal) (GcnDense.transform (V c main_v45) (V c main_arg5)) := by
  show (cfg2.win 2).cut (grid2.coords t) ((dat2 V c).after 2 t) = _
  rw [after2_2]
  unfold out2_2
  rw [View.canon_unit_zero zeros2]
  simp only [View.ld_unit_zero (S := S5000x128) zeros2, View.ld_unit_zero (S := S128x128) zeros2]
  obtain ⟨e0, e1, e2, e3, e4, e5⟩ := rows2 t
  funext j
  obtain ⟨q, f, rfl⟩ : ∃ (q : Fin 5000) (f : Fin 128), j = ix2 q f := ⟨j 0, j 1, eq_ix2 j⟩
  refine (BlockBodies.matmul2_at (fun y => V c main_v45 (((cfg2.win 0).blk t).view.emb y))
    (fun y => V c main_arg5 (((cfg2.win 1).blk t).view.emb y)) q f).trans ?_
  refine Eq.trans ?_ (GcnDense.transform_apply (V c main_v45) (V c main_arg5) (((cfg2.win 2).blk t).view.emb (ix2 q f))).symm
  refine Finset.sum_congr rfl fun k _ => ?_
  have hx : ((cfg2.win 0).blk t).view.emb (ix2 q k) = ix2 ((((cfg2.win 2).blk t).view.emb (ix2 q f)) 0) k := by
    funext a; apply Fin.ext
    match a with
    | ⟨0, _⟩ => show win2_0.index t (0 : Fin 2) * 5000 + 1 * q.val = win2_2.index t (0 : Fin 2) * 5000 + 1 * q.val; omega
    | ⟨1, _⟩ => show win2_0.index t (1 : Fin 2) * 128 + 1 * k.val = k.val; omega
  have hw : ((cfg2.win 1).blk t).view.emb (ix2 k f) = ix2 k ((((cfg2.win 2).blk t).view.emb (ix2 q f)) 1) := by
    funext a; apply Fin.ext
    match a with
    | ⟨0, _⟩ => show win2_1.index t (0 : Fin 2) * 128 + 1 * k.val = k.val; omega
    | ⟨1, _⟩ => show win2_1.index t (1 : Fin 2) * 128 + 1 * f.val = win2_2.index t (1 : Fin 2) * 128 + 1 * f.val; omega
  exact congrArg₂ (fun (u v : EReal) => u * v) (congrArg (V c main_v45) hx) (congrArg (V c main_arg5) hw)

/-- An index of the output array is in point t's block iff each coordinate is in the block's range on its axis. -/
theorem mem_blk2 (t : Fin cfg2.N) (i : S50000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v46).slice (win2_2.rect t)).set ↔ _
  rw [View.set_slice_whole, Rect.mem_set_unit]
  exact Iff.rfl

/-- The ten blocks of 5000 rows tile the 50000 rows: node n is in block n / 5000. -/
theorem cover2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 10 := N_2
  refine ⟨⟨(i 0).val / 5000, by rw [hN]; omega⟩, flush2_2 _, ?_⟩
  obtain ⟨-, -, -, -, e4, e5⟩ := rows2 ⟨(i 0).val / 5000, by rw [hN]; omega⟩
  rw [mem_blk2]
  intro a
  match a with
  | ⟨0, _⟩ =>
    show win2_2.index _ (0 : Fin 2) * 5000 ≤ (i 0).val ∧ (i 0).val < win2_2.index _ (0 : Fin 2) * 5000 + 5000
    rw [e4]; show (i 0).val / 5000 * 5000 ≤ (i 0).val ∧ (i 0).val < (i 0).val / 5000 * 5000 + 5000; omega
  | ⟨1, _⟩ =>
    show win2_2.index _ (1 : Fin 2) * 128 ≤ (i 1).val ∧ (i 1).val < win2_2.index _ (1 : Fin 2) * 128 + 128
    rw [e5]; omega

/-- THE ARRAY region 2 leaves: `transform` of its two input arrays, whole. -/
theorem array2 (c : Dev nD) : (dat2 V c).arrAt 2 cfg2.N = GcnDense.transform (V c main_v45) (V c main_arg5) :=
  (dat2 V c).arrAt_eq_of_cover 2 _ (fun t _ => flushed2 V c t) cover2

/-! ## Region 3: layer 2, bias row and rectifier -/

/-- The printed index maps over the ten grid points: the block of node rows read and the block written are the same rows (block t is rows 5000 t … 5000 t + 4999), and the bias row is fetched whole. -/
theorem rows3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of `biasRect` of the region's two input arrays as it finds them. -/
theorem flushed3 (c : Dev nD) (t : Fin cfg3.N) :
    (dat3 V c).flushed 2 t
      = ((cfg3.win 2).blk t).view.read (Elt Ideal) (GcnDense.biasRect (V c main_v59) (V c main_v60)) := by
  show (cfg3.win 2).cut (grid3.coords t) ((dat3 V c).after 2 t) = _
  rw [after3_2]
  unfold out3_2
  rw [View.canon_unit_zero zeros2]
  simp only [View.ld_unit_zero (S := S5000x128) zeros2, View.ld_unit_zero (S := S1x128) zeros2]
  obtain ⟨e0, e1, e2, e3, e4, e5⟩ := rows3 t
  funext j
  obtain ⟨q, f, rfl⟩ : ∃ (q : Fin 5000) (f : Fin 128), j = ix2 q f := ⟨j 0, j 1, eq_ix2 j⟩
  refine (BlockBodies.bias3_at (fun y => V c main_v59 (((cfg3.win 0).blk t).view.emb y))
    (fun y => V c main_v60 (((cfg3.win 1).blk t).view.emb y)) q f).trans ?_
  have hx : ((cfg3.win 0).blk t).view.emb (ix2 q f) = ((cfg3.win 2).blk t).view.emb (ix2 q f) := by
    funext a; apply Fin.ext
    match a with
    | ⟨0, _⟩ => show win3_0.index t (0 : Fin 2) * 5000 + 1 * q.val = win3_2.index t (0 : Fin 2) * 5000 + 1 * q.val; omega
    | ⟨1, _⟩ => show win3_0.index t (1 : Fin 2) * 128 + 1 * f.val = win3_2.index t (1 : Fin 2) * 128 + 1 * f.val; omega
  have hb : ((cfg3.win 1).blk t).view.emb (ix2 (0 : Fin 1) f) = ix2 (0 : Fin 1) ((((cfg3.win 2).blk t).view.emb (ix2 q f)) 1) := by
    funext a; apply Fin.ext
    match a with
    | ⟨0, _⟩ => show win3_1.index t (0 : Fin 2) * 1 + 1 * 0 = 0; omega
    | ⟨1, _⟩ => show win3_1.index t (1 : Fin 2) * 128 + 1 * f.val = win3_2.index t (1 : Fin 2) * 128 + 1 * f.val; omega
  refine Eq.trans ?_ (GcnDense.biasRect_apply (V c main_v59) (V c main_v60) (((cfg3.win 2).blk t).view.emb (ix2 q f))).symm
  exact congrArg₂ (fun (u v : EReal) => max (u + v) (Ideal.ofBits .f32 0x00000000#32)) (congrArg (V c main_v59) hx) (congrArg (V c main_v60) hb)

/-- An index of the output array is in point t's block iff each coordinate is in the block's range on its axis. -/
theorem mem_blk3 (t : Fin cfg3.N) (i : S50000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v61).slice (win3_2.rect t)).set ↔ _
  rw [View.set_slice_whole, Rect.mem_set_unit]
  exact Iff.rfl

/-- The ten blocks of 5000 rows tile the 50000 rows: node n is in block n / 5000. -/
theorem cover3 (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 10 := N_3
  refine ⟨⟨(i 0).val / 5000, by rw [hN]; omega⟩, flush3_2 _, ?_⟩
  obtain ⟨-, -, -, -, e4, e5⟩ := rows3 ⟨(i 0).val / 5000, by rw [hN]; omega⟩
  rw [mem_blk3]
  intro a
  match a with
  | ⟨0, _⟩ =>
    show win3_2.index _ (0 : Fin 2) * 5000 ≤ (i 0).val ∧ (i 0).val < win3_2.index _ (0 : Fin 2) * 5000 + 5000
    rw [e4]; show (i 0).val / 5000 * 5000 ≤ (i 0).val ∧ (i 0).val < (i 0).val / 5000 * 5000 + 5000; omega
  | ⟨1, _⟩ =>
    show win3_2.index _ (1 : Fin 2) * 128 ≤ (i 1).val ∧ (i 1).val < win3_2.index _ (1 : Fin 2) * 128 + 128
    rw [e5]; omega

/-- THE ARRAY region 3 leaves: `biasRect` of its two input arrays, whole. -/
theorem array3 (c : Dev nD) : (dat3 V c).arrAt 2 cfg3.N = GcnDense.biasRect (V c main_v59) (V c main_v60) :=
  (dat3 V c).arrAt_eq_of_cover 2 _ (fun t _ => flushed3 V c t) cover3

/-! ## Region 4: layer 3, layer 2's output times W3 -/

/-- The printed index maps over the ten grid points: the block of node rows read and the block written are the same rows (block t is rows 5000 t … 5000 t + 4999), and the weights are fetched whole. -/
theorem rows4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is block t of `transform` of the region's two input arrays as it finds them. -/
theorem flushed4 (c : Dev nD) (t : Fin cfg4.N) :
    (dat4 V c).flushed 2 t
      = ((cfg4.win 2).blk t).view.read (Elt Ideal) (GcnDense.transform (V c main_v61) (V c main_arg7)) := by
  show (cfg4.win 2).cut (grid4.coords t) ((dat4 V c).after 2 t) = _
  rw [after4_2]
  unfold out4_2
  rw [View.canon_unit_zero zeros2]
  simp only [View.ld_unit_zero (S := S5000x128) zeros2, View.ld_unit_zero (S := S128x128) zeros2]
  obtain ⟨e0, e1, e2, e3, e4, e5⟩ := rows4 t
  funext j
  obtain ⟨q, f, rfl⟩ : ∃ (q : Fin 5000) (f : Fin 128), j = ix2 q f := ⟨j 0, j 1, eq_ix2 j⟩
  refine (BlockBodies.matmul4_at (fun y => V c main_v61 (((cfg4.win 0).blk t).view.emb y))
    (fun y => V c main_arg7 (((cfg4.win 1).blk t).view.emb y)) q f).trans ?_
  refine Eq.trans ?_ (GcnDense.transform_apply (V c main_v61) (V c main_arg7) (((cfg4.win 2).blk t).view.emb (ix2 q f))).symm
  refine Finset.sum_congr rfl fun k _ => ?_
  have hx : ((cfg4.win 0).blk t).view.emb (ix2 q k) = ix2 ((((cfg4.win 2).blk t).view.emb (ix2 q f)) 0) k := by
    funext a; apply Fin.ext
    match a with
    | ⟨0, _⟩ => show win4_0.index t (0 : Fin 2) * 5000 + 1 * q.val = win4_2.index t (0 : Fin 2) * 5000 + 1 * q.val; omega
    | ⟨1, _⟩ => show win4_0.index t (1 : Fin 2) * 128 + 1 * k.val = k.val; omega
  have hw : ((cfg4.win 1).blk t).view.emb (ix2 k f) = ix2 k ((((cfg4.win 2).blk t).view.emb (ix2 q f)) 1) := by
    funext a; apply Fin.ext
    match a with
    | ⟨0, _⟩ => show win4_1.index t (0 : Fin 2) * 128 + 1 * k.val = k.val; omega
    | ⟨1, _⟩ => show win4_1.index t (1 : Fin 2) * 128 + 1 * f.val = win4_2.index t (1 : Fin 2) * 128 + 1 * f.val; omega
  exact congrArg₂ (fun (u v : EReal) => u * v) (congrArg (V c main_v61) hx) (congrArg (V c main_arg7) hw)

/-- An index of the output array is in point t's block iff each coordinate is in the block's range on its axis. -/
theorem mem_blk4 (t : Fin cfg4.N) (i : S50000x128.Idx) :
    i ∈ ((cfg4.win 2).blk t).view.set ↔ ∀ a : Fin 2, win4_2.index t a * S5000x128.size a ≤ (i a).val
      ∧ (i a).val < win4_2.index t a * S5000x128.size a + S5000x128.size a := by
  show i ∈ ((View.whole main_v62).slice (win4_2.rect t)).set ↔ _
  rw [View.set_slice_whole, Rect.mem_set_unit]
  exact Iff.rfl

/-- The ten blocks of 5000 rows tile the 50000 rows: node n is in block n / 5000. -/
theorem cover4 (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  have hN : cfg4.N = 10 := N_4
  refine ⟨⟨(i 0).val / 5000, by rw [hN]; omega⟩, flush4_2 _, ?_⟩
  obtain ⟨-, -, -, -, e4, e5⟩ := rows4 ⟨(i 0).val / 5000, by rw [hN]; omega⟩
  rw [mem_blk4]
  intro a
  match a with
  | ⟨0, _⟩ =>
    show win4_2.index _ (0 : Fin 2) * 5000 ≤ (i 0).val ∧ (i 0).val < win4_2.index _ (0 : Fin 2) * 5000 + 5000
    rw [e4]; show (i 0).val / 5000 * 5000 ≤ (i 0).val ∧ (i 0).val < (i 0).val / 5000 * 5000 + 5000; omega
  | ⟨1, _⟩ =>
    show win4_2.index _ (1 : Fin 2) * 128 ≤ (i 1).val ∧ (i 1).val < win4_2.index _ (1 : Fin 2) * 128 + 128
    rw [e5]; omega

/-- THE ARRAY region 4 leaves: `transform` of its two input arrays, whole. -/
theorem array4 (c : Dev nD) : (dat4 V c).arrAt 2 cfg4.N = GcnDense.transform (V c main_v61) (V c main_arg7) :=
  (dat4 V c).arrAt_eq_of_cover 2 _ (fun t _ => flushed4 V c t) cover4

/-! ## Region 5: layer 3, bias row, no rectifier -/

/-- The printed index maps over the ten grid points: the block of node rows read and the block written are the same rows (block t is rows 5000 t … 5000 t + 4999), and the bias row is fetched whole. -/
theorem rows5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point t writes back is block t of `biasAdd` of the region's two input arrays as it finds them. -/
theorem flushed5 (c : Dev nD) (t : Fin cfg5.N) :
    (dat5 V c).flushed 2 t
      = ((cfg5.win 2).blk t).view.read (Elt Ideal) (GcnDense.biasAdd (V c main_v75) (V c main_v76)) := by
  show (cfg5.win 2).cut (grid5.coords t) ((dat5 V c).after 2 t) = _
  rw [after5_2]
  unfold out5_2
  rw [View.canon_unit_zero zeros2]
  simp only [View.ld_unit_zero (S := S5000x128) zeros2, View.ld_unit_zero (S := S1x128) zeros2]
  obtain ⟨e0, e1, e2, e3, e4, e5⟩ := rows5 t
  funext j
  obtain ⟨q, f, rfl⟩ : ∃ (q : Fin 5000) (f : Fin 128), j = ix2 q f := ⟨j 0, j 1, eq_ix2 j⟩
  refine (BlockBodies.bias5_at (fun y => V c main_v75 (((cfg5.win 0).blk t).view.emb y))
    (fun y => V c main_v76 (((cfg5.win 1).blk t).view.emb y)) q f).trans ?_
  have hx : ((cfg5.win 0).blk t).view.emb (ix2 q f) = ((cfg5.win 2).blk t).view.emb (ix2 q f) := by
    funext a; apply Fin.ext
    match a with
    | ⟨0, _⟩ => show win5_0.index t (0 : Fin 2) * 5000 + 1 * q.val = win5_2.index t (0 : Fin 2) * 5000 + 1 * q.val; omega
    | ⟨1, _⟩ => show win5_0.index t (1 : Fin 2) * 128 + 1 * f.val = win5_2.index t (1 : Fin 2) * 128 + 1 * f.val; omega
  have hb : ((cfg5.win 1).blk t).view.emb (ix2 (0 : Fin 1) f) = ix2 (0 : Fin 1) ((((cfg5.win 2).blk t).view.emb (ix2 q f)) 1) := by
    funext a; apply Fin.ext
    match a with
    | ⟨0, _⟩ => show win5_1.index t (0 : Fin 2) * 1 + 1 * 0 = 0; omega
    | ⟨1, _⟩ => show win5_1.index t (1 : Fin 2) * 128 + 1 * f.val = win5_2.index t (1 : Fin 2) * 128 + 1 * f.val; omega
  refine Eq.trans ?_ (GcnDense.biasAdd_apply (V c main_v75) (V c main_v76) (((cfg5.win 2).blk t).view.emb (ix2 q f))).symm
  exact congrArg₂ (fun (u v : EReal) => u + v) (congrArg (V c main_v75) hx) (congrArg (V c main_v76) hb)

/-- An index of the output array is in point t's block iff each coordinate is in the block's range on its axis. -/
theorem mem_blk5 (t : Fin cfg5.N) (i : S50000x128.Idx) :
    i ∈ ((cfg5.win 2).blk t).view.set ↔ ∀ a : Fin 2, win5_2.index t a * S5000x128.size a ≤ (i a).val
      ∧ (i a).val < win5_2.index t a * S5000x128.size a + S5000x128.size a := by
  show i ∈ ((View.whole main_v77).slice (win5_2.rect t)).set ↔ _
  rw [View.set_slice_whole, Rect.mem_set_unit]
  exact Iff.rfl

/-- The ten blocks of 5000 rows tile the 50000 rows: node n is in block n / 5000. -/
theorem cover5 (i : S50000x128.Idx) :
    ∃ t : Fin cfg5.N, (cfg5.win 2).flush t = true ∧ i ∈ ((cfg5.win 2).blk t).view.set := by
  have hi0 : (i 0).val < 50000 := (i 0).isLt
  have hi1 : (i 1).val < 128 := (i 1).isLt
  have hN : cfg5.N = 10 := N_5
  refine ⟨⟨(i 0).val / 5000, by rw [hN]; omega⟩, flush5_2 _, ?_⟩
  obtain ⟨-, -, -, -, e4, e5⟩ := rows5 ⟨(i 0).val / 5000, by rw [hN]; omega⟩
  rw [mem_blk5]
  intro a
  match a with
  | ⟨0, _⟩ =>
    show win5_2.index _ (0 : Fin 2) * 5000 ≤ (i 0).val ∧ (i 0).val < win5_2.index _ (0 : Fin 2) * 5000 + 5000
    rw [e4]; show (i 0).val / 5000 * 5000 ≤ (i 0).val ∧ (i 0).val < (i 0).val / 5000 * 5000 + 5000; omega
  | ⟨1, _⟩ =>
    show win5_2.index _ (1 : Fin 2) * 128 ≤ (i 1).val ∧ (i 1).val < win5_2.index _ (1 : Fin 2) * 128 + 128
    rw [e5]; omega

/-- THE ARRAY region 5 leaves: `biasAdd` of its two input arrays, whole. -/
theorem array5 (c : Dev nD) : (dat5 V c).arrAt 2 cfg5.N = GcnDense.biasAdd (V c main_v75) (V c main_v76) :=
  (dat5 V c).arrAt_eq_of_cover 2 _ (fun t _ => flushed5 V c t) cover5

end Cert.KernelIdeal.RegionArrays

end
-- ==== Proof.Boundaries.lean ====
/-
  The idealized kernel's result, read through its thirteen segment boundaries.

  The run leaves the result buffer at the last boundary's contents (`Gen.W13`). Walking the boundaries from the
  launch: the opening stretches leave the edge lists and the edges' norms, functions of the edge list alone; each
  matrix-product region leaves `transform` of its input array and the layer's weights (`RegionArrays.arrayK`); the
  stretch after it aggregates that over the edges and reshapes the layer's bias to a row; each bias region leaves
  `biasRect` (the last one `biasAdd`) of the aggregate and the row; the closing stretch is the readout. No region and
  no later stretch writes the edge lists, the norms, or an argument still to be read, so those are carried unchanged.
  Composed, the result is `GcnHost.network` over the kernel's dense stages.
-/
import proofs.«144275_j68049461838507_1_alg».proof.Proof.Gen.KernelIdeal.Frame
import proofs.«144275_j68049461838507_1_alg».proof.Proof.KernelStretches
import proofs.«144275_j68049461838507_1_alg».proof.Proof.RegionArrays
import proofs.«144275_j68049461838507_1_alg».proof.Proof.DenseStages

set_option maxRecDepth 16384

noncomputable section

namespace Cert.KernelIdeal.Boundaries

open Cert.KernelIdeal Cert.KernelIdeal.Facts₀ Cert.KernelIdeal.Facts Cert.KernelIdeal.Gen
open Cert.KernelIdeal.Stretches Cert.KernelIdeal.RegionArrays Cert.GcnHost Cert.GcnDense
open Idealize.ShloMosaic Idealize.ShloMosaic.TcCoe Idealize.SL.Sem Idealize.ShloMosaic.StableHlo

/-- The kernel's bias stage on a layer's bias: the bias reshaped to a row, added, then the rectifier. -/
def kAct (a : (⟨S50000x128, .f32⟩ : BufTy).Contents (Elt Ideal)) (b : (⟨S128, .f32⟩ : BufTy).Contents (Elt Ideal)) : (⟨S50000x128, .f32⟩ : BufTy).Contents (Elt Ideal) :=
  biasRect a (shapeCast S1x128 b Facts₀.shapeCasts_S128_S1x128)

/-- The last layer's: no rectifier. -/
def kAct3 (a : (⟨S50000x128, .f32⟩ : BufTy).Contents (Elt Ideal)) (b : (⟨S128, .f32⟩ : BufTy).Contents (Elt Ideal)) : (⟨S50000x128, .f32⟩ : BufTy).Contents (Elt Ideal) :=
  biasAdd a (shapeCast S1x128 b Facts₀.shapeCasts_S128_S1x128)

variable (m : (ℓ : Loc nD τ sig) → Buf (Elt Ideal) ℓ) (ρ : Dev nD → PrngReg) (c : Dev nD)

/-! ## The stages of the network at the launch memory's arguments -/

/-- The sources, the destinations, the norms. -/
def src : (⟨S1650000, .i32⟩ : BufTy).Contents (Elt Ideal) := srcIdx (F := Ideal) (m ((c : Thread nD τ).loc main_arg1))
def dst : (⟨S1650000, .i32⟩ : BufTy).Contents (Elt Ideal) := dstIdx (F := Ideal) (m ((c : Thread nD τ).loc main_arg1))
def nrm : (⟨S1650000, .f32⟩ : BufTy).Contents (Elt Ideal) := edgeNorm (F := Ideal) (src m c) (dst m c)
/-- Layer 1: product, aggregate, bias and rectifier. -/
def h1 : (⟨S50000x128, .f32⟩ : BufTy).Contents (Elt Ideal) := transform (m ((c : Thread nD τ).loc main_arg0)) (m ((c : Thread nD τ).loc main_arg3))
def g1 : (⟨S50000x128, .f32⟩ : BufTy).Contents (Elt Ideal) := aggregate (F := Ideal) (h1 m c) (src m c) (dst m c) (nrm m c)
def o1 : (⟨S50000x128, .f32⟩ : BufTy).Contents (Elt Ideal) := kAct (g1 m c) (m ((c : Thread nD τ).loc main_arg4))
/-- Layer 2. -/
def h2 : (⟨S50000x128, .f32⟩ : BufTy).Contents (Elt Ideal) := transform (o1 m c) (m ((c : Thread nD τ).loc main_arg5))
def g2 : (⟨S50000x128, .f32⟩ : BufTy).Contents (Elt Ideal) := aggregate (F := Ideal) (h2 m c) (src m c) (dst m c) (nrm m c)
def o2 : (⟨S50000x128, .f32⟩ : BufTy).Contents (Elt Ideal) := kAct (g2 m c) (m ((c : Thread nD τ).loc main_arg6))
/-- Layer 3. -/
def h3 : (⟨S50000x128, .f32⟩ : BufTy).Contents (Elt Ideal) := transform (o2 m c) (m ((c : Thread nD τ).loc main_arg7))
def g3 : (⟨S50000x128, .f32⟩ : BufTy).Contents (Elt Ideal) := aggregate (F := Ideal) (h3 m c) (src m c) (dst m c) (nrm m c)
def o3 : (⟨S50000x128, .f32⟩ : BufTy).Contents (Elt Ideal) := kAct3 (g3 m c) (m ((c : Thread nD τ).loc main_arg8))
/-- The readout. -/
def out : (⟨S1x1, .f32⟩ : BufTy).Contents (Elt Ideal) := readout (F := Ideal) (o3 m c) (m ((c : Thread nD τ).loc main_arg9)) (m ((c : Thread nD τ).loc main_arg10))

/-- The stages composed are the network over the kernel's dense stages. -/
theorem out_eq : out m c = network (F := Ideal) transform kAct kAct3
    (m ((c : Thread nD τ).loc main_arg0)) (m ((c : Thread nD τ).loc main_arg1)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8))
    (m ((c : Thread nD τ).loc main_arg9)) (m ((c : Thread nD τ).loc main_arg10)) := rfl

/-! ## What is carried -/

/-- After the opening stretches an argument is as launched. -/
theorem at3_arg (b : Ref sig .tc) (hb : b ∈ arguments) : W3 m ρ c (Proc.devRef .tc b) = m ((c : Thread nD τ).loc b) :=
  opening_keeps (W0 m ρ c) b hb

/-- Region 0 writes none of the carried buffers (its arrays are %arg0, %arg3 and %30). -/
theorem carry4 (b : Ref sig .tc) (hb : b ∈ carried) : W4 m ρ c (Proc.devRef .tc b) = W3 m ρ c (Proc.devRef .tc b) :=
  W4_of_ne m ρ c b ((by decide : ∀ b ∈ carried, ∀ w : Fin cfg0.W, Pipeline.arrRef spec0 w ≠ b) b hb)
theorem carry5 (b : Ref sig .tc) (hb : b ∈ carried) : W5 m ρ c (Proc.devRef .tc b) = W3 m ρ c (Proc.devRef .tc b) :=
  (keep1 (W4 m ρ c) b hb).trans (carry4 m ρ c b hb)
theorem carry6 (b : Ref sig .tc) (hb : b ∈ carried) : W6 m ρ c (Proc.devRef .tc b) = W3 m ρ c (Proc.devRef .tc b) :=
  (W6_of_ne m ρ c b ((by decide : ∀ b ∈ carried, ∀ w : Fin cfg1.W, Pipeline.arrRef spec1 w ≠ b) b hb)).trans (carry5 m ρ c b hb)

/-- What is still carried past region 2, which reads %arg5. -/
def carried7 : List (Ref sig .tc) := [main_v5, main_v6, main_v29, main_arg6, main_arg7, main_arg8, main_arg9, main_arg10]
theorem carried7_sub : ∀ b ∈ carried7, b ∈ carried := by decide
theorem carry7 (b : Ref sig .tc) (hb : b ∈ carried7) : W7 m ρ c (Proc.devRef .tc b) = W3 m ρ c (Proc.devRef .tc b) :=
  (W7_of_ne m ρ c b ((by decide : ∀ b ∈ carried7, ∀ w : Fin cfg2.W, Pipeline.arrRef spec2 w ≠ b) b hb)).trans
    (carry6 m ρ c b (carried7_sub b hb))
theorem carry8 (b : Ref sig .tc) (hb : b ∈ carried7) : W8 m ρ c (Proc.devRef .tc b) = W3 m ρ c (Proc.devRef .tc b) :=
  (keep3 (W7 m ρ c) b (carried7_sub b hb)).trans (carry7 m ρ c b hb)
theorem carry9 (b : Ref sig .tc) (hb : b ∈ carried7) : W9 m ρ c (Proc.devRef .tc b) = W3 m ρ c (Proc.devRef .tc b) :=
  (W9_of_ne m ρ c b ((by decide : ∀ b ∈ carried7, ∀ w : Fin cfg3.W, Pipeline.arrRef spec3 w ≠ b) b hb)).trans (carry8 m ρ c b hb)

/-- What is still carried past region 4, which reads %arg7. -/
def carried10 : List (Ref sig .tc) := [main_v5, main_v6, main_v29, main_arg8, main_arg9, main_arg10]
theorem carried10_sub : ∀ b ∈ carried10, b ∈ carried7 := by decide
theorem carry10 (b : Ref sig .tc) (hb : b ∈ carried10) : W10 m ρ c (Proc.devRef .tc b) = W3 m ρ c (Proc.devRef .tc b) :=
  (W10_of_ne m ρ c b ((by decide : ∀ b ∈ carried10, ∀ w : Fin cfg4.W, Pipeline.arrRef spec4 w ≠ b) b hb)).trans
    (carry9 m ρ c b (carried10_sub b hb))
theorem carry11 (b : Ref sig .tc) (hb : b ∈ carried10) : W11 m ρ c (Proc.devRef .tc b) = W3 m ρ c (Proc.devRef .tc b) :=
  (keep5 (W10 m ρ c) b (carried7_sub b (carried10_sub b hb))).trans (carry10 m ρ c b hb)
theorem carry12 (b : Ref sig .tc) (hb : b ∈ carried10) : W12 m ρ c (Proc.devRef .tc b) = W3 m ρ c (Proc.devRef .tc b) :=
  (W12_of_ne m ρ c b ((by decide : ∀ b ∈ carried10, ∀ w : Fin cfg5.W, Pipeline.arrRef spec5 w ≠ b) b hb)).trans (carry11 m ρ c b hb)

/-! ## The boundaries -/

/-- After the opening stretches: the edge lists and the norms. -/
theorem at3_src : W3 m ρ c (Proc.devRef .tc main_v5) = src m c := opening_src (W0 m ρ c)
theorem at3_dst : W3 m ρ c (Proc.devRef .tc main_v6) = dst m c := opening_dst (W0 m ρ c)
theorem at3_nrm : W3 m ρ c (Proc.devRef .tc main_v29) = nrm m c := opening_norm (W0 m ρ c)

/-- After region 0: layer 1's product. -/
theorem at4 : W4 m ρ c (Proc.devRef .tc main_v30) = h1 m c := by
  refine (W4_arr m ρ c 2).trans ((array0 (V3 m ρ) c).trans ?_)
  show transform (W3 m ρ c (Proc.devRef .tc main_arg0)) (W3 m ρ c (Proc.devRef .tc main_arg3)) = _
  rw [at3_arg m ρ c main_arg0 (by decide), at3_arg m ρ c main_arg3 (by decide)]
  rfl

/-- After the next stretch: layer 1's aggregate, and its bias as a row. -/
theorem at5 : W5 m ρ c (Proc.devRef .tc main_v43) = g1 m c := by
  refine (agg1 (W4 m ρ c)).trans ?_
  rw [at4, carry4 m ρ c main_v5 (by decide), carry4 m ρ c main_v6 (by decide), carry4 m ρ c main_v29 (by decide),
    at3_src, at3_dst, at3_nrm]
  rfl
theorem at5_row : W5 m ρ c (Proc.devRef .tc main_v44) = shapeCast S1x128 (m ((c : Thread nD τ).loc main_arg4)) Facts₀.shapeCasts_S128_S1x128 := by
  refine (row1 (W4 m ρ c)).trans ?_
  rw [carry4 m ρ c main_arg4 (by decide), at3_arg m ρ c main_arg4 (by decide)]

/-- After region 1: layer 1's output. -/
theorem at6 : W6 m ρ c (Proc.devRef .tc main_v45) = o1 m c := by
  refine (W6_arr m ρ c 2).trans ((array1 (V5 m ρ) c).trans ?_)
  show biasRect (W5 m ρ c (Proc.devRef .tc main_v43)) (W5 m ρ c (Proc.devRef .tc main_v44)) = _
  rw [at5, at5_row]
  rfl

/-- After region 2: layer 2's product. -/
theorem at7 : W7 m ρ c (Proc.devRef .tc main_v46) = h2 m c := by
  refine (W7_arr m ρ c 2).trans ((array2 (V6 m ρ) c).trans ?_)
  show transform (W6 m ρ c (Proc.devRef .tc main_v45)) (W6 m ρ c (Proc.devRef .tc main_arg5)) = _
  rw [at6, carry6 m ρ c main_arg5 (by decide), at3_arg m ρ c main_arg5 (by decide)]
  rfl

/-- After the next stretch: layer 2's aggregate, and its bias as a row. -/
theorem at8 : W8 m ρ c (Proc.devRef .tc main_v59) = g2 m c := by
  refine (agg3 (W7 m ρ c)).trans ?_
  rw [at7, carry7 m ρ c main_v5 (by decide), carry7 m ρ c main_v6 (by decide), carry7 m ρ c main_v29 (by decide),
    at3_src, at3_dst, at3_nrm]
  rfl
theorem at8_row : W8 m ρ c (Proc.devRef .tc main_v60) = shapeCast S1x128 (m ((c : Thread nD τ).loc main_arg6)) Facts₀.shapeCasts_S128_S1x128 := by
  refine (row3 (W7 m ρ c)).trans ?_
  rw [carry7 m ρ c main_arg6 (by decide), at3_arg m ρ c main_arg6 (by decide)]

/-- After region 3: layer 2's output. -/
theorem at9 : W9 m ρ c (Proc.devRef .tc main_v61) = o2 m c := by
  refine (W9_arr m ρ c 2).trans ((array3 (V8 m ρ) c).trans ?_)
  show biasRect (W8 m ρ c (Proc.devRef .tc main_v59)) (W8 m ρ c (Proc.devRef .tc main_v60)) = _
  rw [at8, at8_row]
  rfl

/-- After region 4: layer 3's product. -/
theorem at10 : W10 m ρ c (Proc.devRef .tc main_v62) = h3 m c := by
  refine (W10_arr m ρ c 2).trans ((array4 (V9 m ρ) c).trans ?_)
  show transform (W9 m ρ c (Proc.devRef .tc main_v61)) (W9 m ρ c (Proc.devRef .tc main_arg7)) = _
  rw [at9, carry9 m ρ c main_arg7 (by decide), at3_arg m ρ c main_arg7 (by decide)]
  rfl

/-- After the next stretch: layer 3's aggregate, and its bias as a row. -/
theorem at11 : W11 m ρ c (Proc.devRef .tc main_v75) = g3 m c := by
  refine (agg5 (W10 m ρ c)).trans ?_
  rw [at10, carry10 m ρ c main_v5 (by decide), carry10 m ρ c main_v6 (by decide), carry10 m ρ c main_v29 (by decide),
    at3_src, at3_dst, at3_nrm]
  rfl
theorem at11_row : W11 m ρ c (Proc.devRef .tc main_v76) = shapeCast S1x128 (m ((c : Thread nD τ).loc main_arg8)) Facts₀.shapeCasts_S128_S1x128 := by
  refine (row5 (W10 m ρ c)).trans ?_
  rw [carry10 m ρ c main_arg8 (by decide), at3_arg m ρ c main_arg8 (by decide)]

/-- After region 5: layer 3's output. -/
theorem at12 : W12 m ρ c (Proc.devRef .tc main_v77) = o3 m c := by
  refine (W12_arr m ρ c 2).trans ((array5 (V11 m ρ) c).trans ?_)
  show biasAdd (W11 m ρ c (Proc.devRef .tc main_v75)) (W11 m ρ c (Proc.devRef .tc main_v76)) = _
  rw [at11, at11_row]
  rfl

/-- THE RESULT: the last boundary holds the network's value in the result buffer. -/
theorem result : W13 m ρ c (Proc.devRef .tc main_v90) = network (F := Ideal) transform kAct kAct3
    (m ((c : Thread nD τ).loc main_arg0)) (m ((c : Thread nD τ).loc main_arg1)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8))
    (m ((c : Thread nD τ).loc main_arg9)) (m ((c : Thread nD τ).loc main_arg10)) := by
  refine (readout6 (W12 m ρ c)).trans ?_
  rw [at12, carry12 m ρ c main_arg9 (by decide), carry12 m ρ c main_arg10 (by decide),
    at3_arg m ρ c main_arg9 (by decide), at3_arg m ρ c main_arg10 (by decide)]
  rfl

end Cert.KernelIdeal.Boundaries

end
-- ==== Proof.RefDenseDefs.lean ====
/-
  The reference's own dense stages, as functions of whole arrays: features times weights is one `dot_general` on the
  whole 50000 x 128 array; the bias is broadcast from 128 to 1 x 128 to 50000 x 128 and added; the rectifier is a
  maximum with a broadcast zero.
-/
import proofs.«144275_j68049461838507_1_alg».proof.Proof.Gen.ReferenceIdeal

noncomputable section

namespace Cert.ReferenceIdeal.RefValue

open Cert.ReferenceIdeal Cert.ReferenceIdeal.Facts₀ Cert.ReferenceIdeal.Facts Idealize.ShloMosaic

variable {F : FTy → Type} [FloatOps F]

/-- The host's features-times-weights: one `dot_general` over the whole node array. -/
def hostDense (x : (⟨S50000x128, .f32⟩ : BufTy).Contents (Elt F)) (w : (⟨S128x128, .f32⟩ : BufTy).Contents (Elt F)) : (⟨S50000x128, .f32⟩ : BufTy).Contents (Elt F) :=
  Host.dotGeneral dot_S50000x128_S128x128_S50000x128_1_0_0_1_n_n none x w

/-- The host's bias and rectifier. -/
def hostAct (a : (⟨S50000x128, .f32⟩ : BufTy).Contents (Elt F)) (b : (⟨S128, .f32⟩ : BufTy).Contents (Elt F)) : (⟨S50000x128, .f32⟩ : BufTy).Contents (Elt F) :=
  maximumf (addf a (broadcastInDim S50000x128 ![0, 1] bcast_S1x128_S50000x128_0_1 (broadcastInDim S1x128 ![1] bcast_S128_S1x128_1 b)))
    (broadcastInDim S50000x128 ![] bcast_S_S50000x128 (constant S_ .f32 0x00000000#32))

/-- The host's bias alone (the last layer). -/
def hostAct3 (a : (⟨S50000x128, .f32⟩ : BufTy).Contents (Elt F)) (b : (⟨S128, .f32⟩ : BufTy).Contents (Elt F)) : (⟨S50000x128, .f32⟩ : BufTy).Contents (Elt F) :=
  addf a (broadcastInDim S50000x128 ![0, 1] bcast_S1x128_S50000x128_0_1 (broadcastInDim S1x128 ![1] bcast_S128_S1x128_1 b))

end Cert.ReferenceIdeal.RefValue

end
-- ==== Proof.RefValue.lean ====
/-
  The idealized reference's result as the network over the HOST's dense stages (`hostDense`, `hostAct`, `hostAct3`):
  everything else of its @main is, operation for operation, the host side the kernel program runs too
  (`GcnHost.network`).
-/
import proofs.«144275_j68049461838507_1_alg».proof.Proof.RefRunPatched
import proofs.«144275_j68049461838507_1_alg».proof.Proof.StageTactic
import proofs.«144275_j68049461838507_1_alg».proof.Proof.RefDenseDefs

set_option maxRecDepth 16384

noncomputable section

namespace Cert.ReferenceIdeal.RefValue

open Cert.ReferenceIdeal Cert.ReferenceIdeal.Facts₀ Cert.ReferenceIdeal.Facts Cert.ReferenceIdeal.ValueP
open Idealize.ShloMosaic Idealize.ShloMosaic.TcCoe Idealize.SL.Sem Idealize.ShloMosaic.StableHlo

variable {F : FTy → Type} [FloatOps F]

set_option maxHeartbeats 40000000 in
/-- The result buffer after the reference's 123 operations, from any contents V: the network of V's arguments. -/
theorem value (V : Valuation τ sig (Elt F)) :
    after ops V (Proc.devRef .tc main_v95)
      = GcnHost.network (F := F) (hostDense (F := F)) (hostAct (F := F)) (hostAct3 (F := F))
          (V (Proc.devRef .tc main_arg0)) (V (Proc.devRef .tc main_arg1))
          (V (Proc.devRef .tc main_arg3)) (V (Proc.devRef .tc main_arg4))
          (V (Proc.devRef .tc main_arg5)) (V (Proc.devRef .tc main_arg6))
          (V (Proc.devRef .tc main_arg7)) (V (Proc.devRef .tc main_arg8))
          (V (Proc.devRef .tc main_arg9)) (V (Proc.devRef .tc main_arg10)) := by
  dsimp only [ops]
  stage_results
  rfl

/-- The reference's arguments. -/
def arguments : List (Ref sig .tc) :=
  [main_arg0, main_arg1, main_arg2, main_arg3, main_arg4, main_arg5, main_arg6, main_arg7, main_arg8, main_arg9, main_arg10]

set_option maxHeartbeats 4000000 in
/-- No operation writes an argument. -/
theorem keeps (V : Valuation τ sig (Elt F)) (b : Ref sig .tc) (hb : b ∈ arguments) :
    after ops V (Proc.devRef .tc b) = V (Proc.devRef .tc b) := by
  simp only [arguments, List.mem_cons, List.not_mem_nil, or_false] at hb
  rcases hb with rfl | rfl | rfl | rfl | rfl | rfl | rfl | rfl | rfl | rfl | rfl <;> (dsimp only [ops]; stage_results)

/-- THE RUN, READ: every weakly fair execution of the reference terminates with its result at the network over the
    host's dense stages, of the launch memory's arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v95)
        = GcnHost.network (F := F) (hostDense (F := F)) (hostAct (F := F)) (hostAct3 (F := F))
            (m ((c.tc : Thread nD τ).loc main_arg0)) (m ((c.tc : Thread nD τ).loc main_arg1))
            (m ((c.tc : Thread nD τ).loc main_arg3)) (m ((c.tc : Thread nD τ).loc main_arg4))
            (m ((c.tc : Thread nD τ).loc main_arg5)) (m ((c.tc : Thread nD τ).loc main_arg6))
            (m ((c.tc : Thread nD τ).loc main_arg7)) (m ((c.tc : Thread nD τ).loc main_arg8))
            (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨(h c main_v95).trans (value (launchContents m c)),
      (h c main_arg0).trans (keeps (launchContents m c) main_arg0 (by decide)),
      (h c main_arg1).trans (keeps (launchContents m c) main_arg1 (by decide)),
      (h c main_arg2).trans (keeps (launchContents m c) main_arg2 (by decide)),
      (h c main_arg3).trans (keeps (launchContents m c) main_arg3 (by decide)),
      (h c main_arg4).trans (keeps (launchContents m c) main_arg4 (by decide)),
      (h c main_arg5).trans (keeps (launchContents m c) main_arg5 (by decide)),
      (h c main_arg6).trans (keeps (launchContents m c) main_arg6 (by decide)),
      (h c main_arg7).trans (keeps (launchContents m c) main_arg7 (by decide)),
      (h c main_arg8).trans (keeps (launchContents m c) main_arg8 (by decide)),
      (h c main_arg9).trans (keeps (launchContents m c) main_arg9 (by decide)),
      (h c main_arg10).trans (keeps (launchContents m c) main_arg10 (by decide))⟩)
    (ValueP.run m ρ)

end Cert.ReferenceIdeal.RefValue

end
-- ==== Proof.RefDense.lean ====
/-
  The host's dense stages are the kernel's, on the extended reals.

  * One `dot_general` over the whole 50000 x 128 array, read at (n, f), is the sum over k of x (n, k) * w (k, f):
    `GcnDense.transform`. No order or grouping of that sum enters: addition of extended reals is commutative and
    associative (at infinities too), so a sum over a finite index set is one value.
  * The bias broadcast from 128 to 1 x 128 to 50000 x 128 reads, at (n, f), the bias at f — which is what the
    bias RESHAPED to a 1 x 128 row reads at (0, f); adding it and taking the maximum with the broadcast zero is
    `GcnDense.biasRect` of that row, and without the maximum `GcnDense.biasAdd`.
-/
import proofs.«144275_j68049461838507_1_alg».proof.Proof.RefDenseDefs
import proofs.«144275_j68049461838507_1_alg».proof.Proof.LibDotRow
import proofs.«144275_j68049461838507_1_alg».proof.Proof.DenseStages
import Idealize.ShloMosaic.Lib.Pipeline.Value
import Idealize.ShloMosaic.Lib.ValueIdx
import Idealize.ShloMosaic.PureOps.Ideal.Laws

noncomputable section

namespace Cert.ReferenceIdeal.RefDense

open Cert.ReferenceIdeal Cert.ReferenceIdeal.Facts₀ Cert.ReferenceIdeal.Facts Cert.ReferenceIdeal.RefValue
open Idealize.ShloMosaic Idealize.ShloMosaic.ValueIdx

/-- The left operand of the whole product is read at the output's row. -/
theorem lhs_row (j : S50000x128.Idx) (q : dot_S50000x128_S128x128_S50000x128_1_0_0_1_n_n.contr.Idx) :
    (dot_S50000x128_S128x128_S50000x128_1_0_0_1_n_n.lhsIdx j q 0).val = (j 0).val := by
  unfold DotDims.lhsIdx
  rw [dif_neg (show ¬(0 : Fin S50000x128.rank) ∈ dot_S50000x128_S128x128_S50000x128_1_0_0_1_n_n.lhsBatch by decide),
    dif_pos (show (0 : Fin S50000x128.rank) ∈ dot_S50000x128_S128x128_S50000x128_1_0_0_1_n_n.lhsNonContracting by decide)]
  rfl

/-- The right operand of the whole product is read at the output's column. -/
theorem rhs_col (j : S50000x128.Idx) (q : dot_S50000x128_S128x128_S50000x128_1_0_0_1_n_n.contr.Idx) :
    (dot_S50000x128_S128x128_S50000x128_1_0_0_1_n_n.rhsIdx j q 1).val = (j 1).val := by
  unfold DotDims.rhsIdx
  rw [dif_neg (show ¬(1 : Fin S128x128.rank) ∈ dot_S50000x128_S128x128_S50000x128_1_0_0_1_n_n.rhsBatch by decide),
    dif_pos (show (1 : Fin S128x128.rank) ∈ dot_S50000x128_S128x128_S50000x128_1_0_0_1_n_n.rhsNonContracting by decide)]
  rfl

/-- The host's features-times-weights is `transform`. -/
theorem hostDense_eq : hostDense (F := Ideal) = GcnDense.transform := by
  funext x w i
  obtain ⟨n, f, rfl⟩ : ∃ (n : Fin 50000) (f : Fin 128), i = ix2 n f := ⟨i 0, i 1, eq_ix2 i⟩
  unfold hostDense
  simp only [Host.dotGeneral]
  rw [Ideal.dotGeneral_apply]
  exact DotRow.sum_contr dot_S50000x128_S128x128_S50000x128_1_0_0_1_n_n rfl rfl rfl rfl lhs_row rhs_col x w n f

/-- The bias broadcast twice, read at (n, f), is the bias reshaped to a row read at (0, f). -/
theorem bias_at (b : FVec Ideal S128 .f32) (h : S128.ShapeCasts S1x128) (n : Fin 50000) (f : Fin 128) :
    broadcastInDim S50000x128 ![0, 1] bcast_S1x128_S50000x128_0_1 (broadcastInDim S1x128 ![1] bcast_S128_S1x128_1 b) (ix2 n f)
      = shapeCast S1x128 b h (ix2 (0 : Fin 1) f) := by
  rw [broadcastInDim_apply _ bcast_S1x128_S50000x128_0_1 _ (ix2 n f) (ix2 (0 : Fin 1) f) (fun a => match a with
      | ⟨0, _⟩ => by show 0 = if (1 : Nat) = 1 then 0 else _; rw [if_pos rfl]
      | ⟨1, _⟩ => by show f.val = if (128 : Nat) = 1 then 0 else f.val; rw [if_neg (by decide)]),
    broadcastInDim_apply _ bcast_S128_S1x128_1 b (ix2 (0 : Fin 1) f) (ix1 f) (fun a => match a with
      | ⟨0, _⟩ => by show f.val = if (128 : Nat) = 1 then 0 else f.val; rw [if_neg (by decide)]),
    shapeCast_apply b h (ix2 (0 : Fin 1) f) (ix1 f) (by
      rw [Shape.rowMajor_val_one, Shape.rowMajor_val_two]
      show f.val = 0 * 128 + f.val
      omega)]

/-- The host's bias and rectifier is `biasRect` of the bias as a row. -/
theorem hostAct_eq (h : S128.ShapeCasts S1x128) :
    hostAct (F := Ideal) = fun a b => GcnDense.biasRect a (shapeCast S1x128 b h) := by
  funext a b i
  obtain ⟨n, f, rfl⟩ : ∃ (n : Fin 50000) (f : Fin 128), i = ix2 n f := ⟨i 0, i 1, eq_ix2 i⟩
  unfold hostAct GcnDense.biasRect
  show max (a (ix2 n f) + broadcastInDim S50000x128 ![0, 1] bcast_S1x128_S50000x128_0_1 (broadcastInDim S1x128 ![1] bcast_S128_S1x128_1 b) (ix2 n f))
      (broadcastInDim S50000x128 ![] bcast_S_S50000x128 (constant (F := Ideal) S_ .f32 0x00000000#32) (ix2 n f)) = _
  rw [bias_at b h n f, broadcastInDim_apply _ bcast_S_S50000x128 _ (ix2 n f) ix0 (fun a => a.elim0)]
  rfl

/-- The host's bias alone is `biasAdd` of the bias as a row. -/
theorem hostAct3_eq (h : S128.ShapeCasts S1x128) :
    hostAct3 (F := Ideal) = fun a b => GcnDense.biasAdd a (shapeCast S1x128 b h) := by
  funext a b i
  obtain ⟨n, f, rfl⟩ : ∃ (n : Fin 50000) (f : Fin 128), i = ix2 n f := ⟨i 0, i 1, eq_ix2 i⟩
  unfold hostAct3 GcnDense.biasAdd
  show a (ix2 n f) + broadcastInDim S50000x128 ![0, 1] bcast_S1x128_S50000x128_0_1 (broadcastInDim S1x128 ![1] bcast_S128_S1x128_1 b) (ix2 n f) = _
  rw [bias_at b h n f]

end Cert.ReferenceIdeal.RefDense

end
-- ==== Proof.lean ====
/-
  A three-layer graph convolution with a mean-pool readout, computed two ways, is one function on the extended reals.

  Both programs build the edge list with self loops, the symmetric normalisation 1/sqrt(deg) at both endpoints, and per
  layer gather the sources' rows, scale them by the edges' norms and scatter-add them at the destinations, with the same
  host operations and the same literals; both end with the mean over the nodes, a 128 x 1 linear map, a bias and the
  logistic function. They differ in the two DENSE stages of a layer:
  * features times weights — the kernel program multiplies blocks of 5000 rows on the matrix unit (operands rounded to
    a narrower format first: the identity on exact values) into a zero accumulator; the reference applies one
    `dot_general` to all 50000 rows. Entry (n, f) of either is the sum over k of x (n, k) * W (k, f), and a row of the
    product depends only on the same row of x, so the ten blocks are the ten slabs of the whole product.
  * bias and rectifier — the kernel program adds the bias, reshaped to a 1 x 128 row and broadcast along the nodes, to
    blocks of 5000 rows and takes the maximum with zero; the reference broadcasts the bias to the whole array, adds, and
    takes the maximum with a broadcast zero. Entry (n, f) of either is max (a (n, f) + b f, 0); the last layer has no
    maximum in either.
  No law that fails at infinities is used (no distributivity, no cancelling): only that a finite sum of extended
  reals is one value whatever its order, so the precondition that the inputs be finite is not opened.

  The network is written once over its dense stages (Proof/HostStages.lean `GcnHost.network`). The idealized kernel's
  result is that network over `transform` / `biasRect` / `biasAdd` (Proof/Boundaries.lean, through the thirteen
  boundaries of its run; Proof/RegionArrays.lean for what each kernel region leaves); the idealized reference's is the
  network over the host's stages (Proof/RefValue.lean); and the host's stages ARE those functions
  (Proof/RefDense.lean). The three frames are the generated ones (the reference's: its run with the result dropped);
  the idealization rewrote nothing, so `preserves` has nothing to state.
-/
import proofs.«144275_j68049461838507_1_alg».proof.Defs
import proofs.«144275_j68049461838507_1_alg».proof.Proof.Gen.Kernel
import proofs.«144275_j68049461838507_1_alg».proof.Proof.Gen.Kernel.Skeleton
import proofs.«144275_j68049461838507_1_alg».proof.Proof.Gen.Kernel.Launch
import proofs.«144275_j68049461838507_1_alg».proof.Proof.Gen.Kernel.Points
import proofs.«144275_j68049461838507_1_alg».proof.Proof.Gen.Kernel.Frame
import proofs.«144275_j68049461838507_1_alg».proof.Proof.Gen.KernelIdeal
import proofs.«144275_j68049461838507_1_alg».proof.Proof.Gen.KernelIdeal.Skeleton
import proofs.«144275_j68049461838507_1_alg».proof.Proof.Gen.KernelIdeal.Launch
import proofs.«144275_j68049461838507_1_alg».proof.Proof.Gen.KernelIdeal.Points
import proofs.«144275_j68049461838507_1_alg».proof.Proof.Gen.KernelIdeal.Frame
import proofs.«144275_j68049461838507_1_alg».proof.Proof.Gen.ReferenceIdeal
import proofs.«144275_j68049461838507_1_alg».proof.Proof.Gen.Pre_finite_inputs
import proofs.«144275_j68049461838507_1_alg».proof.Proof.LastBoundary
import proofs.«144275_j68049461838507_1_alg».proof.Proof.Boundaries
import proofs.«144275_j68049461838507_1_alg».proof.Proof.RefValue
import proofs.«144275_j68049461838507_1_alg».proof.Proof.RefDense
import Idealize.ShloMosaic.Adequacy
import Idealize.ShloMosaic.Init

set_option maxRecDepth 16384

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, read, with the result dropped. -/
theorem frame_referenceIdeal : Cert.frame_ReferenceIdeal := fun m ρ _ =>
  (θ_run Cert.ReferenceIdeal.defs _ _).mono (fun _ h c => (h c).2) (Cert.ReferenceIdeal.RefValue.run (F := Ideal) m ρ)

/-- The idealization rewrote no operation. -/
theorem preserves : Cert.preserves_Kernel_KernelIdeal := trivial

/-- Run from memories that agree on the arguments, both idealized programs end with the network's value — over the
    kernel's dense stages and over the host's, which are the same functions. -/
theorem algebraic : Cert.algebraic_KernelIdeal_ReferenceIdeal := by
  intro m ρ m' ρ' _ hagree
  refine ⟨fun c => Cert.GcnHost.network (F := Ideal) Cert.GcnDense.transform Cert.KernelIdeal.Boundaries.kAct
      Cert.KernelIdeal.Boundaries.kAct3
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Boundaries.result m ρ c), (h c).2⟩)
      (Cert.KernelIdeal.LastBoundary.run (F := Ideal) m ρ)
  · refine (θ_run Cert.ReferenceIdeal.defs _ _).mono (fun r h c => ⟨(h c).1.trans ?_, (h c).2⟩)
      (Cert.ReferenceIdeal.RefValue.run (F := Ideal) m' ρ')
    rw [(hagree c).1, (hagree c).2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
    rw [Cert.ReferenceIdeal.RefDense.hostDense_eq,
      Cert.ReferenceIdeal.RefDense.hostAct_eq Cert.KernelIdeal.Facts₀.shapeCasts_S128_S1x128,
      Cert.ReferenceIdeal.RefDense.hostAct3_eq Cert.KernelIdeal.Facts₀.shapeCasts_S128_S1x128]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
